-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S64 .f32) (main_arg20 : FVec F S64x1 .f32) (main_arg21 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x1 .f32 := Host.absf main_arg20
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S64 .f32) (main_arg16 : FVec F S64 .f32) (main_arg17 : FVec F S64 .f32) (main_arg18 : FVec F S64 .f32) (main_arg19 : FVec F S64 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64 .f32) (main_arg19 : FVec F S64 .f32) (main_arg20 : FVec F S64x1 .f32) (main_arg21 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64 .f32) (main_arg19 : FVec F S64 .f32) (main_arg20 : FVec F S64x1 .f32) (main_arg21 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64 .f32) (main_arg19 : FVec F S64 .f32) (main_arg20 : FVec F S64x1 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x256 .f32) (main_arg1 : IVec S2x1600000 32) (main_arg2 : FVec F S256x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64 .f32) (main_arg19 : FVec F S64 .f32) (main_arg20 : FVec F S64x1 .f32) (main_arg21 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S4000x1 : Shape := ⟨2, ![4000, 1]⟩
abbrev S4000 : Shape := ⟨1, ![4000]⟩

abbrev nBuf : Space → Nat
  | .hbm => 134
  | .vmem => 48
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64, .f32⟩
  | 19 => ⟨S64, .f32⟩
  | 20 => ⟨S64x1, .f32⟩
  | 21 => ⟨S1, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S_, .f32⟩
  | 30 => ⟨S1700000, .f32⟩
  | 31 => ⟨S_, .f32⟩
  | 32 => ⟨S100000, .f32⟩
  | 33 => ⟨S1700000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S100000x128, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S100000x128, .f32⟩
  | 85 => ⟨S100000x128, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x128, .f32⟩
  | 95 => ⟨S1700000x1, .f32⟩
  | 96 => ⟨S1700000x128, .f32⟩
  | 97 => ⟨S1700000x128, .f32⟩
  | 98 => ⟨S_, .f32⟩
  | 99 => ⟨S100000x128, .f32⟩
  | 100 => ⟨S1700000x1, .i32⟩
  | 101 => ⟨S100000x128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S100000x128, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S1x64, .f32⟩
  | 127 => ⟨S1x64, .f32⟩
  | _ => ⟨S100000x256, .f32⟩

abbrev hbmTy0_1 (i : Nat) : BufTy := match i % 128 with
  | 0 => ⟨S1x64, .f32⟩
  | 1 => ⟨S1x64, .f32⟩
  | 2 => ⟨S100000x64, .f32⟩
  | 3 => ⟨S1x64, .f32⟩
  | 4 => ⟨S1x1, .f32⟩
  | 5 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S1x64, .f32⟩
  | .local _ .vmem, ⟨45, _⟩ => ⟨S1x1, .f32⟩
  | .local _ .vmem, ⟨46, _⟩ => ⟨S4000x1, .f32⟩
  | .local _ .vmem, ⟨47, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_12 : Ref sig .tc := ⟨.hbm, 109, rfl⟩
abbrev main_v71 : Ref sig .tc := ⟨.hbm, 110, rfl⟩
abbrev main_v72 : Ref sig .tc := ⟨.hbm, 111, rfl⟩
abbrev main_c_13 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S64x1_S1x64 : S64x1.ShapeCasts S1x64
  shapeCasts_S1_S1x1 : S1.ShapeCasts S1x1
  reduces_S4000x64_S4000 : S4000x64.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x64.size a ≤ S100000x64.size a
  hwx5_6 : ∀ i : grid5.Coords, EltTy.bits .f32 = 32 ∨ (Rect.block (s := S100000x64) S4000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x1.size a ≤ S100000x1.size a
  hwx6_3 : ∀ i : grid6.Coords, EltTy.bits .f32 = 32 ∨ (Rect.block (s := S100000x1) S4000x1.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v87) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v89) S4000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v89) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v92) S4000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64, .f32⟩
  | 19 => ⟨S64, .f32⟩
  | 20 => ⟨S64x1, .f32⟩
  | 21 => ⟨S1, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S_, .f32⟩
  | 30 => ⟨S1700000, .f32⟩
  | 31 => ⟨S_, .f32⟩
  | 32 => ⟨S100000, .f32⟩
  | 33 => ⟨S1700000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S100000x128, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x256, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x64, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000x64, .f32⟩
  | 22 => ⟨S1700000x1, .f32⟩
  | 23 => ⟨S1700000x64, .f32⟩
  | 24 => ⟨S1700000x64, .f32⟩
  | 25 => ⟨S_, .f32⟩
  | 26 => ⟨S100000x64, .f32⟩
  | 27 => ⟨S1700000x1, .i32⟩
  | 28 => ⟨S100000x64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S64, .f32⟩
  | 41 => ⟨S64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x1, .f32⟩
  | 52 => ⟨S1x1, .f32⟩
  | 53 => ⟨S100000x1, .f32⟩
  | 54 => ⟨S100000x1, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S_, .f32⟩
  | 61 => ⟨S100000x1, .f32⟩
  | 62 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call1_cst : Ref sig .tc := ⟨.hbm, 98, rfl⟩
abbrev main_call1_v0 : Ref sig .tc := ⟨.hbm, 99, rfl⟩
abbrev main_v62 : Ref sig .tc := ⟨.hbm, 100, rfl⟩
abbrev main_v63 : Ref sig .tc := ⟨.hbm, 101, rfl⟩
abbrev main_c_10 : Ref sig .tc := ⟨.hbm, 102, rfl⟩
abbrev main_v64 : Ref sig .tc := ⟨.hbm, 103, rfl⟩
abbrev main_v65 : Ref sig .tc := ⟨.hbm, 104, rfl⟩
abbrev main_c_11 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_12 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_13 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call2_cst : Ref sig .tc := ⟨.hbm, 137, rfl⟩
abbrev main_call2_v0 : Ref sig .tc := ⟨.hbm, 138, rfl⟩
abbrev main_v95 : Ref sig .tc := ⟨.hbm, 139, rfl⟩
abbrev main_v96 : Ref sig .tc := ⟨.hbm, 140, rfl⟩
abbrev main_c_14 : Ref sig .tc := ⟨.hbm, 141, rfl⟩
abbrev main_v97 : Ref sig .tc := ⟨.hbm, 142, rfl⟩
abbrev main_v98 : Ref sig .tc := ⟨.hbm, 143, rfl⟩
abbrev main_c_15 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_16 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_17 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_call3_cst : Ref sig .tc := ⟨.hbm, 176, rfl⟩
abbrev main_call3_v0 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_18 : Ref sig .tc := ⟨.hbm, 185, rfl⟩
abbrev main_v135 : Ref sig .tc := ⟨.hbm, 186, rfl⟩
abbrev main_v136 : Ref sig .tc := ⟨.hbm, 187, rfl⟩
abbrev main_cst_19 : Ref sig .tc := ⟨.hbm, 188, rfl⟩
abbrev main_v137 : Ref sig .tc := ⟨.hbm, 189, rfl⟩
abbrev main_v138 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KKeep.lean ====
/- Buffers that keep their contents along the run of @main.

   The run's buffer contents are a fold through @main: a stretch of host operations rewrites only the result buffer
   of each of its operations, and a kernel launch rewrites only its own arrays. A buffer that is neither stays, from
   one segment boundary to the next, what it was. Below, this is read off for the argument arrays (back to the launch
   memory), for three buffers the first host stretches compute and nothing later writes, and for one buffer across the
   last host stretch. Every statement holds at any float model `F` and any core `c`. -/
import proofs.«144362_j47656957116627_1_alg».proof.Proof.Gen.KernelIdeal.Frame

set_option maxRecDepth 16384

noncomputable section

namespace Cert.KernelIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-- A stretch of host operations leaves a buffer that none of them writes as it was: each operation writes only its
    own result buffer, and the buffer at hand is a different reference from every one of those results. -/
macro "keep_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## The argument arrays, back to the launch memory

    An argument array is the result of no host operation and an array of no launch before the boundary named, so the
    fold at its buffer walks back, one boundary at a time, to what the launch memory holds there. -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = m ((c : Thread nD τ).loc main_arg0) := rfl
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by keep_host hostOps0_2
    _ = W1 m ρ c (Proc.devRef .tc main_arg1) := by keep_host hostOps0_1
    _ = W0 m ρ c (Proc.devRef .tc main_arg1) := by keep_host hostOps0
    _ = m ((c : Thread nD τ).loc main_arg1) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by keep_host hostOps0_2
    _ = W1 m ρ c (Proc.devRef .tc main_arg2) := by keep_host hostOps0_1
    _ = W0 m ρ c (Proc.devRef .tc main_arg2) := by keep_host hostOps0
    _ = m ((c : Thread nD τ).loc main_arg2) := rfl
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = m ((c : Thread nD τ).loc main_arg3) := rfl
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = m ((c : Thread nD τ).loc main_arg4) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = m ((c : Thread nD τ).loc main_arg5) := rfl
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by keep_host hostOps0_2
    _ = W1 m ρ c (Proc.devRef .tc main_arg6) := by keep_host hostOps0_1
    _ = W0 m ρ c (Proc.devRef .tc main_arg6) := by keep_host hostOps0
    _ = m ((c : Thread nD τ).loc main_arg6) := rfl
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by keep_host hostOps0_2
    _ = W1 m ρ c (Proc.devRef .tc main_arg7) := by keep_host hostOps0_1
    _ = W0 m ρ c (Proc.devRef .tc main_arg7) := by keep_host hostOps0
    _ = m ((c : Thread nD τ).loc main_arg7) := rfl
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by keep_host hostOps1
    _ = W3 m ρ c (Proc.devRef .tc main_arg8) := W4_of_ne m ρ c main_arg8 (by decide)
    _ = W2 m ρ c (Proc.devRef .tc main_arg8) := by keep_host hostOps0_2
    _ = W1 m ρ c (Proc.devRef .tc main_arg8) := by keep_host hostOps0_1
    _ = W0 m ρ c (Proc.devRef .tc main_arg8) := by keep_host hostOps0
    _ = m ((c : Thread nD τ).loc main_arg8) := rfl
theorem W7_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by keep_host hostOps1
    _ = W3 m ρ c (Proc.devRef .tc main_arg9) := W4_of_ne m ρ c main_arg9 (by decide)
    _ = W2 m ρ c (Proc.devRef .tc main_arg9) := by keep_host hostOps0_2
    _ = W1 m ρ c (Proc.devRef .tc main_arg9) := by keep_host hostOps0_1
    _ = W0 m ρ c (Proc.devRef .tc main_arg9) := by keep_host hostOps0
    _ = m ((c : Thread nD τ).loc main_arg9) := rfl
theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by keep_host hostOps1
    _ = W3 m ρ c (Proc.devRef .tc main_arg10) := W4_of_ne m ρ c main_arg10 (by decide)
    _ = W2 m ρ c (Proc.devRef .tc main_arg10) := by keep_host hostOps0_2
    _ = W1 m ρ c (Proc.devRef .tc main_arg10) := by keep_host hostOps0_1
    _ = W0 m ρ c (Proc.devRef .tc main_arg10) := by keep_host hostOps0
    _ = m ((c : Thread nD τ).loc main_arg10) := rfl
theorem W7_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by keep_host hostOps1
    _ = W3 m ρ c (Proc.devRef .tc main_arg11) := W4_of_ne m ρ c main_arg11 (by decide)
    _ = W2 m ρ c (Proc.devRef .tc main_arg11) := by keep_host hostOps0_2
    _ = W1 m ρ c (Proc.devRef .tc main_arg11) := by keep_host hostOps0_1
    _ = W0 m ρ c (Proc.devRef .tc main_arg11) := by keep_host hostOps0
    _ = m ((c : Thread nD τ).loc main_arg11) := rfl
theorem W7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by keep_host hostOps1
    _ = W3 m ρ c (Proc.devRef .tc main_arg12) := W4_of_ne m ρ c main_arg12 (by decide)
    _ = W2 m ρ c (Proc.devRef .tc main_arg12) := by keep_host hostOps0_2
    _ = W1 m ρ c (Proc.devRef .tc main_arg12) := by keep_host hostOps0_1
    _ = W0 m ρ c (Proc.devRef .tc main_arg12) := by keep_host hostOps0
    _ = m ((c : Thread nD τ).loc main_arg12) := rfl
theorem W7_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by keep_host hostOps1
    _ = W3 m ρ c (Proc.devRef .tc main_arg13) := W4_of_ne m ρ c main_arg13 (by decide)
    _ = W2 m ρ c (Proc.devRef .tc main_arg13) := by keep_host hostOps0_2
    _ = W1 m ρ c (Proc.devRef .tc main_arg13) := by keep_host hostOps0_1
    _ = W0 m ρ c (Proc.devRef .tc main_arg13) := by keep_host hostOps0
    _ = m ((c : Thread nD τ).loc main_arg13) := rfl
theorem W9_arg14 (c : Dev nD) : W9 m ρ c (Proc.devRef .tc main_arg14) = m ((c : Thread nD τ).loc main_arg14) :=
  calc W9 m ρ c (Proc.devRef .tc main_arg14)
    _ = W8 m ρ c (Proc.devRef .tc main_arg14) := W9_of_ne m ρ c main_arg14 (by decide)
    _ = W7 m ρ c (Proc.devRef .tc main_arg14) := by keep_host hostOps3
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := by keep_host hostOps1
    _ = W3 m ρ c (Proc.devRef .tc main_arg14) := W4_of_ne m ρ c main_arg14 (by decide)
    _ = W2 m ρ c (Proc.devRef .tc main_arg14) := by keep_host hostOps0_2
    _ = W1 m ρ c (Proc.devRef .tc main_arg14) := by keep_host hostOps0_1
    _ = W0 m ρ c (Proc.devRef .tc main_arg14) := by keep_host hostOps0
    _ = m ((c : Thread nD τ).loc main_arg14) := rfl
theorem W10_arg15 (c : Dev nD) : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := W9_of_ne m ρ c main_arg15 (by decide)
    _ = W7 m ρ c (Proc.devRef .tc main_arg15) := by keep_host hostOps3
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := by keep_host hostOps1
    _ = W3 m ρ c (Proc.devRef .tc main_arg15) := W4_of_ne m ρ c main_arg15 (by decide)
    _ = W2 m ρ c (Proc.devRef .tc main_arg15) := by keep_host hostOps0_2
    _ = W1 m ρ c (Proc.devRef .tc main_arg15) := by keep_host hostOps0_1
    _ = W0 m ρ c (Proc.devRef .tc main_arg15) := by keep_host hostOps0
    _ = m ((c : Thread nD τ).loc main_arg15) := rfl
theorem W10_arg16 (c : Dev nD) : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := W9_of_ne m ρ c main_arg16 (by decide)
    _ = W7 m ρ c (Proc.devRef .tc main_arg16) := by keep_host hostOps3
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := by keep_host hostOps1
    _ = W3 m ρ c (Proc.devRef .tc main_arg16) := W4_of_ne m ρ c main_arg16 (by decide)
    _ = W2 m ρ c (Proc.devRef .tc main_arg16) := by keep_host hostOps0_2
    _ = W1 m ρ c (Proc.devRef .tc main_arg16) := by keep_host hostOps0_1
    _ = W0 m ρ c (Proc.devRef .tc main_arg16) := by keep_host hostOps0
    _ = m ((c : Thread nD τ).loc main_arg16) := rfl
theorem W10_arg17 (c : Dev nD) : W10 m ρ c (Proc.devRef .tc main_arg17) = m ((c : Thread nD τ).loc main_arg17) :=
  calc W10 m ρ c (Proc.devRef .tc main_arg17)
    _ = W9 m ρ c (Proc.devRef .tc main_arg17) := W10_of_ne m ρ c main_arg17 (by decide)
    _ = W8 m ρ c (Proc.devRef .tc main_arg17) := W9_of_ne m ρ c main_arg17 (by decide)
    _ = W7 m ρ c (Proc.devRef .tc main_arg17) := by keep_host hostOps3
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := by keep_host hostOps1
    _ = W3 m ρ c (Proc.devRef .tc main_arg17) := W4_of_ne m ρ c main_arg17 (by decide)
    _ = W2 m ρ c (Proc.devRef .tc main_arg17) := by keep_host hostOps0_2
    _ = W1 m ρ c (Proc.devRef .tc main_arg17) := by keep_host hostOps0_1
    _ = W0 m ρ c (Proc.devRef .tc main_arg17) := by keep_host hostOps0
    _ = m ((c : Thread nD τ).loc main_arg17) := rfl
theorem W10_arg18 (c : Dev nD) : W10 m ρ c (Proc.devRef .tc main_arg18) = m ((c : Thread nD τ).loc main_arg18) :=
  calc W10 m ρ c (Proc.devRef .tc main_arg18)
    _ = W9 m ρ c (Proc.devRef .tc main_arg18) := W10_of_ne m ρ c main_arg18 (by decide)
    _ = W8 m ρ c (Proc.devRef .tc main_arg18) := W9_of_ne m ρ c main_arg18 (by decide)
    _ = W7 m ρ c (Proc.devRef .tc main_arg18) := by keep_host hostOps3
    _ = W6 m ρ c (Proc.devRef .tc main_arg18) := W7_of_ne m ρ c main_arg18 (by decide)
    _ = W5 m ρ c (Proc.devRef .tc main_arg18) := W6_of_ne m ρ c main_arg18 (by decide)
    _ = W4 m ρ c (Proc.devRef .tc main_arg18) := by keep_host hostOps1
    _ = W3 m ρ c (Proc.devRef .tc main_arg18) := W4_of_ne m ρ c main_arg18 (by decide)
    _ = W2 m ρ c (Proc.devRef .tc main_arg18) := by keep_host hostOps0_2
    _ = W1 m ρ c (Proc.devRef .tc main_arg18) := by keep_host hostOps0_1
    _ = W0 m ρ c (Proc.devRef .tc main_arg18) := by keep_host hostOps0
    _ = m ((c : Thread nD τ).loc main_arg18) := rfl
theorem W10_arg19 (c : Dev nD) : W10 m ρ c (Proc.devRef .tc main_arg19) = m ((c : Thread nD τ).loc main_arg19) :=
  calc W10 m ρ c (Proc.devRef .tc main_arg19)
    _ = W9 m ρ c (Proc.devRef .tc main_arg19) := W10_of_ne m ρ c main_arg19 (by decide)
    _ = W8 m ρ c (Proc.devRef .tc main_arg19) := W9_of_ne m ρ c main_arg19 (by decide)
    _ = W7 m ρ c (Proc.devRef .tc main_arg19) := by keep_host hostOps3
    _ = W6 m ρ c (Proc.devRef .tc main_arg19) := W7_of_ne m ρ c main_arg19 (by decide)
    _ = W5 m ρ c (Proc.devRef .tc main_arg19) := W6_of_ne m ρ c main_arg19 (by decide)
    _ = W4 m ρ c (Proc.devRef .tc main_arg19) := by keep_host hostOps1
    _ = W3 m ρ c (Proc.devRef .tc main_arg19) := W4_of_ne m ρ c main_arg19 (by decide)
    _ = W2 m ρ c (Proc.devRef .tc main_arg19) := by keep_host hostOps0_2
    _ = W1 m ρ c (Proc.devRef .tc main_arg19) := by keep_host hostOps0_1
    _ = W0 m ρ c (Proc.devRef .tc main_arg19) := by keep_host hostOps0
    _ = m ((c : Thread nD τ).loc main_arg19) := rfl
theorem W12_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of_ne m ρ c main_arg20 (by decide)
    _ = W10 m ρ c (Proc.devRef .tc main_arg20) := by keep_host hostOps5
    _ = W9 m ρ c (Proc.devRef .tc main_arg20) := W10_of_ne m ρ c main_arg20 (by decide)
    _ = W8 m ρ c (Proc.devRef .tc main_arg20) := W9_of_ne m ρ c main_arg20 (by decide)
    _ = W7 m ρ c (Proc.devRef .tc main_arg20) := by keep_host hostOps3
    _ = W6 m ρ c (Proc.devRef .tc main_arg20) := W7_of_ne m ρ c main_arg20 (by decide)
    _ = W5 m ρ c (Proc.devRef .tc main_arg20) := W6_of_ne m ρ c main_arg20 (by decide)
    _ = W4 m ρ c (Proc.devRef .tc main_arg20) := by keep_host hostOps1
    _ = W3 m ρ c (Proc.devRef .tc main_arg20) := W4_of_ne m ρ c main_arg20 (by decide)
    _ = W2 m ρ c (Proc.devRef .tc main_arg20) := by keep_host hostOps0_2
    _ = W1 m ρ c (Proc.devRef .tc main_arg20) := by keep_host hostOps0_1
    _ = W0 m ρ c (Proc.devRef .tc main_arg20) := by keep_host hostOps0
    _ = m ((c : Thread nD τ).loc main_arg20) := rfl
theorem W12_arg21 (c : Dev nD) : W12 m ρ c (Proc.devRef .tc main_arg21) = m ((c : Thread nD τ).loc main_arg21) :=
  calc W12 m ρ c (Proc.devRef .tc main_arg21)
    _ = W11 m ρ c (Proc.devRef .tc main_arg21) := W12_of_ne m ρ c main_arg21 (by decide)
    _ = W10 m ρ c (Proc.devRef .tc main_arg21) := by keep_host hostOps5
    _ = W9 m ρ c (Proc.devRef .tc main_arg21) := W10_of_ne m ρ c main_arg21 (by decide)
    _ = W8 m ρ c (Proc.devRef .tc main_arg21) := W9_of_ne m ρ c main_arg21 (by decide)
    _ = W7 m ρ c (Proc.devRef .tc main_arg21) := by keep_host hostOps3
    _ = W6 m ρ c (Proc.devRef .tc main_arg21) := W7_of_ne m ρ c main_arg21 (by decide)
    _ = W5 m ρ c (Proc.devRef .tc main_arg21) := W6_of_ne m ρ c main_arg21 (by decide)
    _ = W4 m ρ c (Proc.devRef .tc main_arg21) := by keep_host hostOps1
    _ = W3 m ρ c (Proc.devRef .tc main_arg21) := W4_of_ne m ρ c main_arg21 (by decide)
    _ = W2 m ρ c (Proc.devRef .tc main_arg21) := by keep_host hostOps0_2
    _ = W1 m ρ c (Proc.devRef .tc main_arg21) := by keep_host hostOps0_1
    _ = W0 m ρ c (Proc.devRef .tc main_arg21) := by keep_host hostOps0
    _ = m ((c : Thread nD τ).loc main_arg21) := rfl

/-! ## Three buffers the first host stretches compute

    `main_v3`, `main_v6` and `main_v29` are results of host operations before the first launch. No later host
    operation has one of them as its result and no launch has one of them among its arrays, so at the exits of the
    first, third and fifth launches each still holds what it held when the first launch was entered. -/

theorem W4_v3 (c : Dev nD) : W4 m ρ c (Proc.devRef .tc main_v3) = W3 m ρ c (Proc.devRef .tc main_v3) :=
  W4_of_ne m ρ c main_v3 (by decide)
theorem W7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host hostOps1
    _ = W3 m ρ c (Proc.devRef .tc main_v3) := W4_v3 m ρ c
theorem W10_v3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keep_host hostOps3
    _ = W3 m ρ c (Proc.devRef .tc main_v3) := W7_v3 m ρ c
theorem W4_v6 (c : Dev nD) : W4 m ρ c (Proc.devRef .tc main_v6) = W3 m ρ c (Proc.devRef .tc main_v6) :=
  W4_of_ne m ρ c main_v6 (by decide)
theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host hostOps1
    _ = W3 m ρ c (Proc.devRef .tc main_v6) := W4_v6 m ρ c
theorem W10_v6 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keep_host hostOps3
    _ = W3 m ρ c (Proc.devRef .tc main_v6) := W7_v6 m ρ c
theorem W4_v29 (c : Dev nD) : W4 m ρ c (Proc.devRef .tc main_v29) = W3 m ρ c (Proc.devRef .tc main_v29) :=
  W4_of_ne m ρ c main_v29 (by decide)
theorem W7_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by keep_host hostOps1
    _ = W3 m ρ c (Proc.devRef .tc main_v29) := W4_v29 m ρ c
theorem W10_v29 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by keep_host hostOps3
    _ = W3 m ρ c (Proc.devRef .tc main_v29) := W7_v29 m ρ c

/-! ## Across the last host stretch

    The last host stretch reshapes two argument arrays into fresh buffers; `main_v89` is the result of neither. -/

theorem W13_v89 (c : Dev nD) : W13 m ρ c (Proc.devRef .tc main_v89) = W12 m ρ c (Proc.devRef .tc main_v89) := by
  keep_host hostOps6

end Cert.KernelIdeal.Keep
-- ==== Proof.Spec.lean ====
/-
  The three dense stages of a graph-convolution network, index by index (program-independent; imports only the library).

  A layer of the network is: a plain product of the node features by a weight matrix; an aggregation over the edges
  (not stated here: both programs apply the same gather, scaling and accumulating scatter to the product); a bias,
  a normalisation by running statistics with an affine map, and a rectifier, all with one parameter per column; and,
  after the last layer, a product with a one-column matrix, a bias and the logistic function. Each is one function of
  whole arrays, stated at an index of the result over the ideal values.
-/
import Idealize.ShloMosaic.Lib.ValueIdx
import Idealize.ShloMosaic.PureOps.Ideal

noncomputable section

namespace Cert.Gcn.Spec

open Idealize.ShloMosaic Idealize.ShloMosaic.ValueIdx

/-- The plain product of an `[M, K]` matrix by a `[K, N]` matrix: entry `(r, j)` is the sum over `k` of the
    products of the entries `(r, k)` and `(k, j)`. -/
def mm {M K N : ℕ} (x : FVec Ideal ⟨2, ![M, K]⟩ .f32) (w : FVec Ideal ⟨2, ![K, N]⟩ .f32) :
    FVec Ideal ⟨2, ![M, N]⟩ .f32 :=
  fun i => ∑ k : Fin K, x (ix2 (i 0) k) * w (ix2 k (i 1))

/-- Bias, normalisation by running statistics, affine map and rectifier, the five parameters indexed by the column:
    entry `(r, j)` is `max (g j * ((a (r, j) + b j) - mu j) * rsqrt (v j + eps) + be j) 0`, with `eps` the binary
    value of the pattern the programs carry. -/
def bnRelu {R C : ℕ} (a : FVec Ideal ⟨2, ![R, C]⟩ .f32) (b g be mu v : FVec Ideal ⟨1, ![C]⟩ .f32) :
    FVec Ideal ⟨2, ![R, C]⟩ .f32 :=
  fun i => FloatOps.maximumf
    (FloatOps.addf
      (FloatOps.mulf
        (FloatOps.mulf (g (ix1 (i 1))) (FloatOps.subf (FloatOps.addf (a i) (b (ix1 (i 1)))) (mu (ix1 (i 1)))))
        (FloatOps.rsqrt (FloatOps.addf (v (ix1 (i 1))) (FloatOps.ofBits .f32 0x3727C5AC#32))))
      (be (ix1 (i 1))))
    (FloatOps.ofBits .f32 0x00000000#32)

/-- The read-out: entry `(r, 0)` is the logistic function of the sum over `k` of `h (r, k) * wr (k, 0)` plus the
    one bias. -/
def head {R C : ℕ} (h : FVec Ideal ⟨2, ![R, C]⟩ .f32) (wr : FVec Ideal ⟨2, ![C, 1]⟩ .f32)
    (br : FVec Ideal ⟨1, ![1]⟩ .f32) : FVec Ideal ⟨2, ![R, 1]⟩ .f32 :=
  fun i => FloatOps.logistic
    (FloatOps.addf (∑ k : Fin C, h (ix2 (i 0) k) * wr (ix2 k (0 : Fin 1))) (br (ix1 (0 : Fin 1))))

/-- The three stages read at an index, by definition. -/
theorem mm_apply {M K N : ℕ} (x : FVec Ideal ⟨2, ![M, K]⟩ .f32) (w : FVec Ideal ⟨2, ![K, N]⟩ .f32)
    (i : (⟨2, ![M, N]⟩ : Shape).Idx) : mm x w i = ∑ k : Fin K, x (ix2 (i 0) k) * w (ix2 k (i 1)) := rfl

theorem bnRelu_apply {R C : ℕ} (a : FVec Ideal ⟨2, ![R, C]⟩ .f32) (b g be mu v : FVec Ideal ⟨1, ![C]⟩ .f32)
    (i : (⟨2, ![R, C]⟩ : Shape).Idx) :
    bnRelu a b g be mu v i = FloatOps.maximumf
      (FloatOps.addf
        (FloatOps.mulf
          (FloatOps.mulf (g (ix1 (i 1))) (FloatOps.subf (FloatOps.addf (a i) (b (ix1 (i 1)))) (mu (ix1 (i 1)))))
          (FloatOps.rsqrt (FloatOps.addf (v (ix1 (i 1))) (FloatOps.ofBits .f32 0x3727C5AC#32))))
        (be (ix1 (i 1))))
      (FloatOps.ofBits .f32 0x00000000#32) := rfl

theorem head_apply {R C : ℕ} (h : FVec Ideal ⟨2, ![R, C]⟩ .f32) (wr : FVec Ideal ⟨2, ![C, 1]⟩ .f32)
    (br : FVec Ideal ⟨1, ![1]⟩ .f32) (i : (⟨2, ![R, 1]⟩ : Shape).Idx) :
    head h wr br i = FloatOps.logistic
      (FloatOps.addf (∑ k : Fin C, h (ix2 (i 0) k) * wr (ix2 k (0 : Fin 1))) (br (ix1 (0 : Fin 1)))) := rfl

/-- The one row of a `[1, C]` array as a vector of `C` entries. -/
def row {C : ℕ} (x : FVec Ideal ⟨2, ![1, C]⟩ .f32) : FVec Ideal ⟨1, ![C]⟩ .f32 :=
  fun j => x (ix2 (0 : Fin 1) (j 0))

/-- The one row of a `[1, C]` array as a column `[C, 1]`. -/
def col {C : ℕ} (x : FVec Ideal ⟨2, ![1, C]⟩ .f32) : FVec Ideal ⟨2, ![C, 1]⟩ .f32 :=
  fun i => x (ix2 (0 : Fin 1) (i 0))

/-- The one entry of a `[1, 1]` array as a vector of one entry. -/
def one (x : FVec Ideal ⟨2, ![1, 1]⟩ .f32) : FVec Ideal ⟨1, ![1]⟩ .f32 :=
  fun _ => x (ix2 (0 : Fin 1) (0 : Fin 1))

end Cert.Gcn.Spec

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.Reg0.lean ====
/-
  The first dense product as one function of whole arrays.

  The launch walks 25 blocks of 4000 rows. At point `t` the body multiplies rows `4000 t … 4000 t + 3999` of the left
  array by the whole right array into a zero accumulator (the casts to a narrower format are the identity on ideal
  values) and the result is written back as the same rows of the output. Row `r` of the output therefore depends on
  row `r` of the left array alone, the 25 blocks tile the 100000 rows, and the output array ends as the plain product
  of the two arrays the launch found.
-/
import proofs.«144362_j47656957116627_1_alg».proof.Proof.Gen.KernelIdeal.Frame
import proofs.«144362_j47656957116627_1_alg».proof.Proof.Spec
import proofs.«144362_j47656957116627_1_alg».proof.Proof.LibPlainDot
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's product at `(p, q)` of its two loaded blocks: the sum over `k` of `x (p, k) * w (k, q)`. -/
theorem prod0_apply (x : Vec Ideal S4000x256 .f32) (w : Vec Ideal S256x128 .f32) (p : Fin 4000) (q : Fin 128) :
    k0_pay1 x w (ix2 p q) = ∑ k : Fin 256, x (ix2 p k) * w (ix2 k q) := by
  unfold k0_pay1
  exact Cert.PlainDot.matmul_plain_apply (M := 4000) (K := 256) (N := 128) none
    (truncf .bf16 x bitsLt_bf16_f32) (truncf .bf16 w bitsLt_bf16_f32) p q

/-- The printed index maps over the 25 points: the left operand's and the output's blocks move down the rows with
    the point, the right operand's block stays. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the plain product of the arrays the launch found. -/
theorem flushed0 (c : Dev nD) (t : Fin cfg0.N) :
    (dat0 V c).flushed 2 t = ((cfg0.win 2).blk t).view.read (Elt Ideal)
      (Cert.Gcn.Spec.mm (M := 100000) (K := 256) (N := 128) (V c main_arg0) (V c main_arg2)) := by
  show (cfg0.win 2).cut (grid0.coords t) ((dat0 V c).after 2 t) = _
  rw [after0_2]
  unfold out0_2
  rw [View.canon_unit_zero origin2]
  simp only [View.ld_unit_zero (S := S4000x256) origin2, View.ld_unit_zero (S := S256x128) origin2]
  obtain ⟨e0, e1, e2, e3, e4, e5⟩ := blocks0 t
  funext j
  obtain ⟨p, q, rfl⟩ : ∃ (p : Fin 4000) (q : Fin 128), j = ix2 p q := ⟨j 0, j 1, eq_ix2 j⟩
  refine (prod0_apply _ _ p q).trans ?_
  refine Eq.trans ?_ (Cert.Gcn.Spec.mm_apply _ _ _).symm
  have hx : ∀ k : Fin 256, iblk0 V c 0 t (ix2 p k)
      = V c main_arg0 (ix2 ((((cfg0.win 2).blk t).view.emb (ix2 p q)) 0) k) := fun k => by
    show V c main_arg0 (((cfg0.win 0).blk t).view.emb (ix2 p k)) = _
    refine congrArg _ (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 256 + 1 * k.val = k.val; omega
  have hw : ∀ k : Fin 256, iblk0 V c 1 t (ix2 k q)
      = V c main_arg2 (ix2 k ((((cfg0.win 2).blk t).view.emb (ix2 p q)) 1)) := fun k => by
    show V c main_arg2 (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  exact Finset.sum_congr rfl fun k _ => by rw [hx k, hw k]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v30).slice (win0_2.rect t)).set ↔ _
  rw [View.set_slice_whole, Rect.mem_set_unit]
  exact Iff.rfl

/-- Row `r` is in the block of point `r / 4000`: the blocks tile the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 4000 < cfg0.N := by show (i 0).val / 4000 < 25; omega
  obtain ⟨e0, e1, e2, e3, e4, e5⟩ := blocks0 ⟨(i 0).val / 4000, ht⟩
  refine ⟨⟨(i 0).val / 4000, ht⟩, flush0_2 _, ?_⟩
  rw [mem_blk0]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    rw [e5]; omega

/-- The output array after the launch is the plain product of the two arrays the launch found. -/
theorem final0 (c : Dev nD) :
    (dat0 V c).arrAt 2 cfg0.N
      = Cert.Gcn.Spec.mm (M := 100000) (K := 256) (N := 128) (V c main_arg0) (V c main_arg2) :=
  (dat0 V c).arrAt_eq_of_cover 2 _ (fun t _ => flushed0 V c t) cover0

end Cert.KernelIdeal.RegionValue

end
-- ==== Proof.Reg1.lean ====
/-
  Bias, normalisation, affine map and rectifier of launch 1 as one function of whole arrays.

  The launch walks 25 blocks of 4000 rows of a `[100000, 128]` array; its five parameter operands are `[1, 128]` arrays
  whose one block every point reads whole. At point `t` the body computes, entry by entry of rows
  `4000 t … 4000 t + 3999`, `max (g * ((a + b) - mu) * rsqrt (v + eps) + be) 0` with each parameter read at the entry's
  column, and the result is written back as the same rows of the output. The blocks tile the rows, so the output array
  ends as that function of the six arrays the launch found.
-/
import proofs.«144362_j47656957116627_1_alg».proof.Proof.Gen.KernelIdeal.Frame
import proofs.«144362_j47656957116627_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin2_1 : (![0, 0] : Fin 2 → Nat) = fun _ => 0 := funext fun a => by fin_cases a <;> rfl

/-- The body at `(p, q)` of its six loaded blocks: each parameter is read at `(0, q)`, the data block at `(p, q)`. -/
theorem body1_apply (a : Vec Ideal S4000x128 .f32) (b g mu v be : Vec Ideal S1x128 .f32) (p : Fin 4000) (q : Fin 128) :
    k1_pay1 a b g mu v be (ix2 p q)
      = FloatOps.maximumf (F := Ideal)
          (FloatOps.addf
            (FloatOps.mulf
              (FloatOps.mulf (g (ix2 (0 : Fin 1) q)) (FloatOps.subf (FloatOps.addf (a (ix2 p q)) (b (ix2 (0 : Fin 1) q))) (mu (ix2 (0 : Fin 1) q))))
              (FloatOps.rsqrt (FloatOps.addf (v (ix2 (0 : Fin 1) q)) (FloatOps.ofBits .f32 0x3727C5AC#32))))
            (be (ix2 (0 : Fin 1) q)))
          (FloatOps.ofBits .f32 0x00000000#32) := by
  have hrow : ∀ x : S1x128.Idx → Elt Ideal .f32, broadcastTo S4000x128 x broadcasts_S1x128_S4000x128 (ix2 p q) = x (ix2 (0 : Fin 1) q) :=
    fun x => broadcastTo_1b_ab_apply x _ p q
  unfold k1_pay1
  simp only [shapeCast_self, maximumf, addf, subf, mulf, rsqrt, broadcast, hrow]

/-! The printed index maps over the 25 points, window by window: the data operand's and the output's blocks move down
    the rows with the point, the five parameters' blocks stay at the origin. -/

set_option maxHeartbeats 4000000 in
theorem win1_0_at : ∀ t : Fin cfg1.N, win1_0.index t (0 : Fin 2) = t.val ∧ win1_0.index t (1 : Fin 2) = 0 :=
  (by decide +kernel : ∀ t : Fin grid1.N, _)
set_option maxHeartbeats 4000000 in
theorem win1_1_at : ∀ t : Fin cfg1.N, win1_1.index t (0 : Fin 2) = 0 ∧ win1_1.index t (1 : Fin 2) = 0 :=
  (by decide +kernel : ∀ t : Fin grid1.N, _)
set_option maxHeartbeats 4000000 in
theorem win1_2_at : ∀ t : Fin cfg1.N, win1_2.index t (0 : Fin 2) = 0 ∧ win1_2.index t (1 : Fin 2) = 0 :=
  (by decide +kernel : ∀ t : Fin grid1.N, _)
set_option maxHeartbeats 4000000 in
theorem win1_3_at : ∀ t : Fin cfg1.N, win1_3.index t (0 : Fin 2) = 0 ∧ win1_3.index t (1 : Fin 2) = 0 :=
  (by decide +kernel : ∀ t : Fin grid1.N, _)
set_option maxHeartbeats 4000000 in
theorem win1_4_at : ∀ t : Fin cfg1.N, win1_4.index t (0 : Fin 2) = 0 ∧ win1_4.index t (1 : Fin 2) = 0 :=
  (by decide +kernel : ∀ t : Fin grid1.N, _)
set_option maxHeartbeats 4000000 in
theorem win1_5_at : ∀ t : Fin cfg1.N, win1_5.index t (0 : Fin 2) = 0 ∧ win1_5.index t (1 : Fin 2) = 0 :=
  (by decide +kernel : ∀ t : Fin grid1.N, _)
set_option maxHeartbeats 4000000 in
theorem win1_6_at : ∀ t : Fin cfg1.N, win1_6.index t (0 : Fin 2) = t.val ∧ win1_6.index t (1 : Fin 2) = 0 :=
  (by decide +kernel : ∀ t : Fin grid1.N, _)

set_option maxHeartbeats 4000000 in
/-- What point `t` writes back is block `t` of the stage's function of the arrays the launch found. -/
theorem flushed1 (c : Dev nD) (t : Fin cfg1.N) :
    (dat1 V c).flushed 6 t = ((cfg1.win 6).blk t).view.read (Elt Ideal)
      (Cert.Gcn.Spec.bnRelu (R := 100000) (C := 128) (V c main_v43) (Cert.Gcn.Spec.row (C := 128) (V c main_v44))
        (Cert.Gcn.Spec.row (C := 128) (V c main_v45)) (Cert.Gcn.Spec.row (C := 128) (V c main_v46))
        (Cert.Gcn.Spec.row (C := 128) (V c main_v47)) (Cert.Gcn.Spec.row (C := 128) (V c main_v48))) := by
  show (cfg1.win 6).cut (grid1.coords t) ((dat1 V c).after 6 t) = _
  rw [after1_6]
  unfold out1_6
  rw [View.canon_unit_zero origin2_1]
  simp only [View.ld_unit_zero (S := S4000x128) origin2_1, View.ld_unit_zero (S := S1x128) origin2_1]
  obtain ⟨e00, e01⟩ := win1_0_at t
  obtain ⟨e10, e11⟩ := win1_1_at t
  obtain ⟨e20, e21⟩ := win1_2_at t
  obtain ⟨e30, e31⟩ := win1_3_at t
  obtain ⟨e40, e41⟩ := win1_4_at t
  obtain ⟨e50, e51⟩ := win1_5_at t
  obtain ⟨e60, e61⟩ := win1_6_at t
  funext j
  obtain ⟨p, q, rfl⟩ : ∃ (p : Fin 4000) (q : Fin 128), j = ix2 p q := ⟨j 0, j 1, eq_ix2 j⟩
  refine (body1_apply _ _ _ _ _ _ p q).trans ?_
  refine Eq.trans ?_ (Cert.Gcn.Spec.bnRelu_apply _ _ _ _ _ _ _).symm
  have ha : iblk1 V c 0 t (ix2 p q) = V c main_v43 (((cfg1.win 6).blk t).view.emb (ix2 p q)) := by
    show V c main_v43 (((cfg1.win 0).blk t).view.emb (ix2 p q)) = V c main_v43 (((cfg1.win 6).blk t).view.emb (ix2 p q))
    refine congrArg _ (funext fun ax => Fin.ext ?_)
    match ax with
    | ⟨0, _⟩ => show win1_0.index t (0 : Fin 2) * 4000 + 1 * p.val = win1_6.index t (0 : Fin 2) * 4000 + 1 * p.val; omega
    | ⟨1, _⟩ => show win1_0.index t (1 : Fin 2) * 128 + 1 * q.val = win1_6.index t (1 : Fin 2) * 128 + 1 * q.val; omega
  have hb : iblk1 V c 1 t (ix2 (0 : Fin 1) q)
      = Cert.Gcn.Spec.row (C := 128) (V c main_v44) (ix1 ((((cfg1.win 6).blk t).view.emb (ix2 p q)) 1)) := by
    show V c main_v44 (((cfg1.win 1).blk t).view.emb (ix2 (0 : Fin 1) q))
      = V c main_v44 (ix2 (0 : Fin 1) ((((cfg1.win 6).blk t).view.emb (ix2 p q)) 1))
    refine congrArg _ (funext fun ax => Fin.ext ?_)
    match ax with
    | ⟨0, _⟩ => show win1_1.index t (0 : Fin 2) * 1 + 1 * 0 = 0; omega
    | ⟨1, _⟩ => show win1_1.index t (1 : Fin 2) * 128 + 1 * q.val = win1_6.index t (1 : Fin 2) * 128 + 1 * q.val; omega
  have hg : iblk1 V c 2 t (ix2 (0 : Fin 1) q)
      = Cert.Gcn.Spec.row (C := 128) (V c main_v45) (ix1 ((((cfg1.win 6).blk t).view.emb (ix2 p q)) 1)) := by
    show V c main_v45 (((cfg1.win 2).blk t).view.emb (ix2 (0 : Fin 1) q))
      = V c main_v45 (ix2 (0 : Fin 1) ((((cfg1.win 6).blk t).view.emb (ix2 p q)) 1))
    refine congrArg _ (funext fun ax => Fin.ext ?_)
    match ax with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  have hbe : iblk1 V c 3 t (ix2 (0 : Fin 1) q)
      = Cert.Gcn.Spec.row (C := 128) (V c main_v46) (ix1 ((((cfg1.win 6).blk t).view.emb (ix2 p q)) 1)) := by
    show V c main_v46 (((cfg1.win 3).blk t).view.emb (ix2 (0 : Fin 1) q))
      = V c main_v46 (ix2 (0 : Fin 1) ((((cfg1.win 6).blk t).view.emb (ix2 p q)) 1))
    refine congrArg _ (funext fun ax => Fin.ext ?_)
    match ax with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have hmu : iblk1 V c 4 t (ix2 (0 : Fin 1) q)
      = Cert.Gcn.Spec.row (C := 128) (V c main_v47) (ix1 ((((cfg1.win 6).blk t).view.emb (ix2 p q)) 1)) := by
    show V c main_v47 (((cfg1.win 4).blk t).view.emb (ix2 (0 : Fin 1) q))
      = V c main_v47 (ix2 (0 : Fin 1) ((((cfg1.win 6).blk t).view.emb (ix2 p q)) 1))
    refine congrArg _ (funext fun ax => Fin.ext ?_)
    match ax with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  have hv : iblk1 V c 5 t (ix2 (0 : Fin 1) q)
      = Cert.Gcn.Spec.row (C := 128) (V c main_v48) (ix1 ((((cfg1.win 6).blk t).view.emb (ix2 p q)) 1)) := by
    show V c main_v48 (((cfg1.win 5).blk t).view.emb (ix2 (0 : Fin 1) q))
      = V c main_v48 (ix2 (0 : Fin 1) ((((cfg1.win 6).blk t).view.emb (ix2 p q)) 1))
    refine congrArg _ (funext fun ax => Fin.ext ?_)
    match ax with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  rw [ha, hb, hg, hbe, hmu, hv]

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v49).slice (win1_6.rect t)).set ↔ _
  rw [View.set_slice_whole, Rect.mem_set_unit]
  exact Iff.rfl

/-- Row `r` is in the block of point `r / 4000`: the blocks tile the array. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 4000 < cfg1.N := by show (i 0).val / 4000 < 25; omega
  obtain ⟨e60, e61⟩ := win1_6_at ⟨(i 0).val / 4000, ht⟩
  refine ⟨⟨(i 0).val / 4000, ht⟩, flush1_6 _, ?_⟩
  rw [mem_blk1]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    rw [e61]; omega

/-- The output array after the launch is the stage's function of the six arrays the launch found. -/
theorem final1 (c : Dev nD) :
    (dat1 V c).arrAt 6 cfg1.N
      = Cert.Gcn.Spec.bnRelu (R := 100000) (C := 128) (V c main_v43) (Cert.Gcn.Spec.row (C := 128) (V c main_v44))
        (Cert.Gcn.Spec.row (C := 128) (V c main_v45)) (Cert.Gcn.Spec.row (C := 128) (V c main_v46))
        (Cert.Gcn.Spec.row (C := 128) (V c main_v47)) (Cert.Gcn.Spec.row (C := 128) (V c main_v48)) :=
  (dat1 V c).arrAt_eq_of_cover 6 _ (fun t _ => flushed1 V c t) cover1

end Cert.KernelIdeal.RegionValue

end
-- ==== Proof.Reg2.lean ====
/-
  The second dense product as one function of whole arrays.

  The launch walks 25 blocks of 4000 rows. At point `t` the body multiplies rows `4000 t … 4000 t + 3999` of the left
  array by the whole right array into a zero accumulator (the casts to a narrower format are the identity on ideal
  values) and the result is written back as the same rows of the output. Row `r` of the output therefore depends on
  row `r` of the left array alone, the 25 blocks tile the 100000 rows, and the output array ends as the plain product
  of the two arrays the launch found.
-/
import proofs.«144362_j47656957116627_1_alg».proof.Proof.Gen.KernelIdeal.Frame
import proofs.«144362_j47656957116627_1_alg».proof.Proof.Spec
import proofs.«144362_j47656957116627_1_alg».proof.Proof.LibPlainDot
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin2_2 : (![0, 0] : Fin 2 → Nat) = fun _ => 0 := funext fun a => by fin_cases a <;> rfl

/-- The body's product at `(p, q)` of its two loaded blocks: the sum over `k` of `x (p, k) * w (k, q)`. -/
theorem prod2_apply (x : Vec Ideal S4000x128 .f32) (w : Vec Ideal S128x128 .f32) (p : Fin 4000) (q : Fin 128) :
    k2_pay1 x w (ix2 p q) = ∑ k : Fin 128, x (ix2 p k) * w (ix2 k q) := by
  unfold k2_pay1
  simp only [shapeCast_self]
  exact Cert.PlainDot.matmul_plain_apply (M := 4000) (K := 128) (N := 128) none
    (truncf .bf16 x bitsLt_bf16_f32) (truncf .bf16 w bitsLt_bf16_f32) p q

/-- The printed index maps over the 25 points: the left operand's and the output's blocks move down the rows with
    the point, the right operand's block stays. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the plain product of the arrays the launch found. -/
theorem flushed2 (c : Dev nD) (t : Fin cfg2.N) :
    (dat2 V c).flushed 2 t = ((cfg2.win 2).blk t).view.read (Elt Ideal)
      (Cert.Gcn.Spec.mm (M := 100000) (K := 128) (N := 128) (V c main_v49) (V c main_arg8)) := by
  show (cfg2.win 2).cut (grid2.coords t) ((dat2 V c).after 2 t) = _
  rw [after2_2]
  unfold out2_2
  rw [View.canon_unit_zero origin2_2]
  simp only [View.ld_unit_zero (S := S4000x128) origin2_2, View.ld_unit_zero (S := S128x128) origin2_2]
  obtain ⟨e0, e1, e2, e3, e4, e5⟩ := blocks2 t
  funext j
  obtain ⟨p, q, rfl⟩ : ∃ (p : Fin 4000) (q : Fin 128), j = ix2 p q := ⟨j 0, j 1, eq_ix2 j⟩
  refine (prod2_apply _ _ p q).trans ?_
  refine Eq.trans ?_ (Cert.Gcn.Spec.mm_apply _ _ _).symm
  have hx : ∀ k : Fin 128, iblk2 V c 0 t (ix2 p k)
      = V c main_v49 (ix2 ((((cfg2.win 2).blk t).view.emb (ix2 p q)) 0) k) := fun k => by
    show V c main_v49 (((cfg2.win 0).blk t).view.emb (ix2 p k)) = _
    refine congrArg _ (funext fun a => Fin.ext ?_)
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * k.val = k.val; omega
  have hw : ∀ k : Fin 128, iblk2 V c 1 t (ix2 k q)
      = V c main_arg8 (ix2 k ((((cfg2.win 2).blk t).view.emb (ix2 p q)) 1)) := fun k => by
    show V c main_arg8 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact Finset.sum_congr rfl fun k _ => by rw [hx k, hw k]

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v50).slice (win2_2.rect t)).set ↔ _
  rw [View.set_slice_whole, Rect.mem_set_unit]
  exact Iff.rfl

/-- Row `r` is in the block of point `r / 4000`: the blocks tile the array. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 4000 < cfg2.N := by show (i 0).val / 4000 < 25; omega
  obtain ⟨e0, e1, e2, e3, e4, e5⟩ := blocks2 ⟨(i 0).val / 4000, ht⟩
  refine ⟨⟨(i 0).val / 4000, ht⟩, flush2_2 _, ?_⟩
  rw [mem_blk2]
  intro a
  match a with
  | ⟨0, _⟩ =>
    show win2_2.index ⟨(i 0).val / 4000, ht⟩ (0 : Fin 2) * 4000 ≤ (i 0).val
      ∧ (i 0).val < win2_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, ht⟩ (1 : Fin 2) * 128 ≤ (i 1).val
      ∧ (i 1).val < win2_2.index ⟨(i 0).val / 4000, ht⟩ (1 : Fin 2) * 128 + 128
    rw [e5]; omega

/-- The output array after the launch is the plain product of the two arrays the launch found. -/
theorem final2 (c : Dev nD) :
    (dat2 V c).arrAt 2 cfg2.N
      = Cert.Gcn.Spec.mm (M := 100000) (K := 128) (N := 128) (V c main_v49) (V c main_arg8) :=
  (dat2 V c).arrAt_eq_of_cover 2 _ (fun t _ => flushed2 V c t) cover2

end Cert.KernelIdeal.RegionValue

end
-- ==== Proof.Reg3.lean ====
/-
  Bias, normalisation, affine map and rectifier of launch 3 as one function of whole arrays.

  The launch walks 25 blocks of 4000 rows of a `[100000, 128]` array; its five parameter operands are `[1, 128]` arrays
  whose one block every point reads whole. At point `t` the body computes, entry by entry of rows
  `4000 t … 4000 t + 3999`, `max (g * ((a + b) - mu) * rsqrt (v + eps) + be) 0` with each parameter read at the entry's
  column, and the result is written back as the same rows of the output. The blocks tile the rows, so the output array
  ends as that function of the six arrays the launch found.
-/
import proofs.«144362_j47656957116627_1_alg».proof.Proof.Gen.KernelIdeal.Frame
import proofs.«144362_j47656957116627_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin2_3 : (![0, 0] : Fin 2 → Nat) = fun _ => 0 := funext fun a => by fin_cases a <;> rfl

/-- The body at `(p, q)` of its six loaded blocks: each parameter is read at `(0, q)`, the data block at `(p, q)`. -/
theorem body3_apply (a : Vec Ideal S4000x128 .f32) (b g mu v be : Vec Ideal S1x128 .f32) (p : Fin 4000) (q : Fin 128) :
    k3_pay1 a b g mu v be (ix2 p q)
      = FloatOps.maximumf (F := Ideal)
          (FloatOps.addf
            (FloatOps.mulf
              (FloatOps.mulf (g (ix2 (0 : Fin 1) q)) (FloatOps.subf (FloatOps.addf (a (ix2 p q)) (b (ix2 (0 : Fin 1) q))) (mu (ix2 (0 : Fin 1) q))))
              (FloatOps.rsqrt (FloatOps.addf (v (ix2 (0 : Fin 1) q)) (FloatOps.ofBits .f32 0x3727C5AC#32))))
            (be (ix2 (0 : Fin 1) q)))
          (FloatOps.ofBits .f32 0x00000000#32) := by
  have hrow : ∀ x : S1x128.Idx → Elt Ideal .f32, broadcastTo S4000x128 x broadcasts_S1x128_S4000x128 (ix2 p q) = x (ix2 (0 : Fin 1) q) :=
    fun x => broadcastTo_1b_ab_apply x _ p q
  unfold k3_pay1
  simp only [shapeCast_self, maximumf, addf, subf, mulf, rsqrt, broadcast, hrow]

/-! The printed index maps over the 25 points, window by window: the data operand's and the output's blocks move down
    the rows with the point, the five parameters' blocks stay at the origin. -/

set_option maxHeartbeats 4000000 in
theorem win3_0_at : ∀ t : Fin cfg3.N, win3_0.index t (0 : Fin 2) = t.val ∧ win3_0.index t (1 : Fin 2) = 0 :=
  (by decide +kernel : ∀ t : Fin grid3.N, _)
set_option maxHeartbeats 4000000 in
theorem win3_1_at : ∀ t : Fin cfg3.N, win3_1.index t (0 : Fin 2) = 0 ∧ win3_1.index t (1 : Fin 2) = 0 :=
  (by decide +kernel : ∀ t : Fin grid3.N, _)
set_option maxHeartbeats 4000000 in
theorem win3_2_at : ∀ t : Fin cfg3.N, win3_2.index t (0 : Fin 2) = 0 ∧ win3_2.index t (1 : Fin 2) = 0 :=
  (by decide +kernel : ∀ t : Fin grid3.N, _)
set_option maxHeartbeats 4000000 in
theorem win3_3_at : ∀ t : Fin cfg3.N, win3_3.index t (0 : Fin 2) = 0 ∧ win3_3.index t (1 : Fin 2) = 0 :=
  (by decide +kernel : ∀ t : Fin grid3.N, _)
set_option maxHeartbeats 4000000 in
theorem win3_4_at : ∀ t : Fin cfg3.N, win3_4.index t (0 : Fin 2) = 0 ∧ win3_4.index t (1 : Fin 2) = 0 :=
  (by decide +kernel : ∀ t : Fin grid3.N, _)
set_option maxHeartbeats 4000000 in
theorem win3_5_at : ∀ t : Fin cfg3.N, win3_5.index t (0 : Fin 2) = 0 ∧ win3_5.index t (1 : Fin 2) = 0 :=
  (by decide +kernel : ∀ t : Fin grid3.N, _)
set_option maxHeartbeats 4000000 in
theorem win3_6_at : ∀ t : Fin cfg3.N, win3_6.index t (0 : Fin 2) = t.val ∧ win3_6.index t (1 : Fin 2) = 0 :=
  (by decide +kernel : ∀ t : Fin grid3.N, _)

set_option maxHeartbeats 4000000 in
/-- What point `t` writes back is block `t` of the stage's function of the arrays the launch found. -/
theorem flushed3 (c : Dev nD) (t : Fin cfg3.N) :
    (dat3 V c).flushed 6 t = ((cfg3.win 6).blk t).view.read (Elt Ideal)
      (Cert.Gcn.Spec.bnRelu (R := 100000) (C := 128) (V c main_v63) (Cert.Gcn.Spec.row (C := 128) (V c main_v64))
        (Cert.Gcn.Spec.row (C := 128) (V c main_v65)) (Cert.Gcn.Spec.row (C := 128) (V c main_v66))
        (Cert.Gcn.Spec.row (C := 128) (V c main_v67)) (Cert.Gcn.Spec.row (C := 128) (V c main_v68))) := by
  show (cfg3.win 6).cut (grid3.coords t) ((dat3 V c).after 6 t) = _
  rw [after3_6]
  unfold out3_6
  rw [View.canon_unit_zero origin2_3]
  simp only [View.ld_unit_zero (S := S4000x128) origin2_3, View.ld_unit_zero (S := S1x128) origin2_3]
  obtain ⟨e00, e01⟩ := win3_0_at t
  obtain ⟨e10, e11⟩ := win3_1_at t
  obtain ⟨e20, e21⟩ := win3_2_at t
  obtain ⟨e30, e31⟩ := win3_3_at t
  obtain ⟨e40, e41⟩ := win3_4_at t
  obtain ⟨e50, e51⟩ := win3_5_at t
  obtain ⟨e60, e61⟩ := win3_6_at t
  funext j
  obtain ⟨p, q, rfl⟩ : ∃ (p : Fin 4000) (q : Fin 128), j = ix2 p q := ⟨j 0, j 1, eq_ix2 j⟩
  refine (body3_apply _ _ _ _ _ _ p q).trans ?_
  refine Eq.trans ?_ (Cert.Gcn.Spec.bnRelu_apply _ _ _ _ _ _ _).symm
  have ha : iblk3 V c 0 t (ix2 p q) = V c main_v63 (((cfg3.win 6).blk t).view.emb (ix2 p q)) := by
    show V c main_v63 (((cfg3.win 0).blk t).view.emb (ix2 p q)) = V c main_v63 (((cfg3.win 6).blk t).view.emb (ix2 p q))
    refine congrArg _ (funext fun ax => Fin.ext ?_)
    match ax with
    | ⟨0, _⟩ => show win3_0.index t (0 : Fin 2) * 4000 + 1 * p.val = win3_6.index t (0 : Fin 2) * 4000 + 1 * p.val; omega
    | ⟨1, _⟩ => show win3_0.index t (1 : Fin 2) * 128 + 1 * q.val = win3_6.index t (1 : Fin 2) * 128 + 1 * q.val; omega
  have hb : iblk3 V c 1 t (ix2 (0 : Fin 1) q)
      = Cert.Gcn.Spec.row (C := 128) (V c main_v64) (ix1 ((((cfg3.win 6).blk t).view.emb (ix2 p q)) 1)) := by
    show V c main_v64 (((cfg3.win 1).blk t).view.emb (ix2 (0 : Fin 1) q))
      = V c main_v64 (ix2 (0 : Fin 1) ((((cfg3.win 6).blk t).view.emb (ix2 p q)) 1))
    refine congrArg _ (funext fun ax => Fin.ext ?_)
    match ax with
    | ⟨0, _⟩ => show win3_1.index t (0 : Fin 2) * 1 + 1 * 0 = 0; omega
    | ⟨1, _⟩ => show win3_1.index t (1 : Fin 2) * 128 + 1 * q.val = win3_6.index t (1 : Fin 2) * 128 + 1 * q.val; omega
  have hg : iblk3 V c 2 t (ix2 (0 : Fin 1) q)
      = Cert.Gcn.Spec.row (C := 128) (V c main_v65) (ix1 ((((cfg3.win 6).blk t).view.emb (ix2 p q)) 1)) := by
    show V c main_v65 (((cfg3.win 2).blk t).view.emb (ix2 (0 : Fin 1) q))
      = V c main_v65 (ix2 (0 : Fin 1) ((((cfg3.win 6).blk t).view.emb (ix2 p q)) 1))
    refine congrArg _ (funext fun ax => Fin.ext ?_)
    match ax with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  have hbe : iblk3 V c 3 t (ix2 (0 : Fin 1) q)
      = Cert.Gcn.Spec.row (C := 128) (V c main_v66) (ix1 ((((cfg3.win 6).blk t).view.emb (ix2 p q)) 1)) := by
    show V c main_v66 (((cfg3.win 3).blk t).view.emb (ix2 (0 : Fin 1) q))
      = V c main_v66 (ix2 (0 : Fin 1) ((((cfg3.win 6).blk t).view.emb (ix2 p q)) 1))
    refine congrArg _ (funext fun ax => Fin.ext ?_)
    match ax with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega
  have hmu : iblk3 V c 4 t (ix2 (0 : Fin 1) q)
      = Cert.Gcn.Spec.row (C := 128) (V c main_v67) (ix1 ((((cfg3.win 6).blk t).view.emb (ix2 p q)) 1)) := by
    show V c main_v67 (((cfg3.win 4).blk t).view.emb (ix2 (0 : Fin 1) q))
      = V c main_v67 (ix2 (0 : Fin 1) ((((cfg3.win 6).blk t).view.emb (ix2 p q)) 1))
    refine congrArg _ (funext fun ax => Fin.ext ?_)
    match ax with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  have hv : iblk3 V c 5 t (ix2 (0 : Fin 1) q)
      = Cert.Gcn.Spec.row (C := 128) (V c main_v68) (ix1 ((((cfg3.win 6).blk t).view.emb (ix2 p q)) 1)) := by
    show V c main_v68 (((cfg3.win 5).blk t).view.emb (ix2 (0 : Fin 1) q))
      = V c main_v68 (ix2 (0 : Fin 1) ((((cfg3.win 6).blk t).view.emb (ix2 p q)) 1))
    refine congrArg _ (funext fun ax => Fin.ext ?_)
    match ax with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  rw [ha, hb, hg, hbe, hmu, hv]

/-- An index of the output array is in point `t`'s block iff each coordinate is in the block's range on its axis. -/
theorem mem_blk3 (t : Fin cfg3.N) (i : S100000x128.Idx) :
    i ∈ ((cfg3.win 6).blk t).view.set ↔ ∀ a : Fin 2, win3_6.index t a * S4000x128.size a ≤ (i a).val
      ∧ (i a).val < win3_6.index t a * S4000x128.size a + S4000x128.size a := by
  show i ∈ ((View.whole main_v69).slice (win3_6.rect t)).set ↔ _
  rw [View.set_slice_whole, Rect.mem_set_unit]
  exact Iff.rfl

/-- Row `r` is in the block of point `r / 4000`: the blocks tile the array. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have ht : (i 0).val / 4000 < cfg3.N := by show (i 0).val / 4000 < 25; omega
  obtain ⟨e60, e61⟩ := win3_6_at ⟨(i 0).val / 4000, ht⟩
  refine ⟨⟨(i 0).val / 4000, ht⟩, flush3_6 _, ?_⟩
  rw [mem_blk3]
  intro a
  match a with
  | ⟨0, _⟩ =>
    show win3_6.index ⟨(i 0).val / 4000, ht⟩ (0 : Fin 2) * 4000 ≤ (i 0).val
      ∧ (i 0).val < win3_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win3_6.index ⟨(i 0).val / 4000, ht⟩ (1 : Fin 2) * 128 ≤ (i 1).val
      ∧ (i 1).val < win3_6.index ⟨(i 0).val / 4000, ht⟩ (1 : Fin 2) * 128 + 128
    rw [e61]; omega

/-- The output array after the launch is the stage's function of the six arrays the launch found. -/
theorem final3 (c : Dev nD) :
    (dat3 V c).arrAt 6 cfg3.N
      = Cert.Gcn.Spec.bnRelu (R := 100000) (C := 128) (V c main_v63) (Cert.Gcn.Spec.row (C := 128) (V c main_v64))
        (Cert.Gcn.Spec.row (C := 128) (V c main_v65)) (Cert.Gcn.Spec.row (C := 128) (V c main_v66))
        (Cert.Gcn.Spec.row (C := 128) (V c main_v67)) (Cert.Gcn.Spec.row (C := 128) (V c main_v68)) :=
  (dat3 V c).arrAt_eq_of_cover 6 _ (fun t _ => flushed3 V c t) cover3

end Cert.KernelIdeal.RegionValue

end
-- ==== Proof.Reg4.lean ====
/-
  The third dense product as one function of whole arrays.

  The launch walks 25 blocks of 4000 rows. At point `t` the body multiplies rows `4000 t … 4000 t + 3999` of the left
  array by the whole right array into a zero accumulator (the casts to a narrower format are the identity on ideal
  values) and the result is written back as the same rows of the output. Row `r` of the output therefore depends on
  row `r` of the left array alone, the 25 blocks tile the 100000 rows, and the output array ends as the plain product
  of the two arrays the launch found.
-/
import proofs.«144362_j47656957116627_1_alg».proof.Proof.Gen.KernelIdeal.Frame
import proofs.«144362_j47656957116627_1_alg».proof.Proof.Spec
import proofs.«144362_j47656957116627_1_alg».proof.Proof.LibPlainDot
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin2_4 : (![0, 0] : Fin 2 → Nat) = fun _ => 0 := funext fun a => by fin_cases a <;> rfl

/-- The body's product at `(p, q)` of its two loaded blocks: the sum over `k` of `x (p, k) * w (k, q)`. -/
theorem prod4_apply (x : Vec Ideal S4000x128 .f32) (w : Vec Ideal S128x64 .f32) (p : Fin 4000) (q : Fin 64) :
    k4_pay1 x w (ix2 p q) = ∑ k : Fin 128, x (ix2 p k) * w (ix2 k q) := by
  unfold k4_pay1
  simp only [shapeCast_self]
  exact Cert.PlainDot.matmul_plain_apply (M := 4000) (K := 128) (N := 64) none
    (truncf .bf16 x bitsLt_bf16_f32) (truncf .bf16 w bitsLt_bf16_f32) p q

/-- The printed index maps over the 25 points: the left operand's and the output's blocks move down the rows with
    the point, the right operand's block stays. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the plain product of the arrays the launch found. -/
theorem flushed4 (c : Dev nD) (t : Fin cfg4.N) :
    (dat4 V c).flushed 2 t = ((cfg4.win 2).blk t).view.read (Elt Ideal)
      (Cert.Gcn.Spec.mm (M := 100000) (K := 128) (N := 64) (V c main_v69) (V c main_arg14)) := by
  show (cfg4.win 2).cut (grid4.coords t) ((dat4 V c).after 2 t) = _
  rw [after4_2]
  unfold out4_2
  rw [View.canon_unit_zero origin2_4]
  simp only [View.ld_unit_zero (S := S4000x128) origin2_4, View.ld_unit_zero (S := S128x64) origin2_4]
  obtain ⟨e0, e1, e2, e3, e4, e5⟩ := blocks4 t
  funext j
  obtain ⟨p, q, rfl⟩ : ∃ (p : Fin 4000) (q : Fin 64), j = ix2 p q := ⟨j 0, j 1, eq_ix2 j⟩
  refine (prod4_apply _ _ p q).trans ?_
  refine Eq.trans ?_ (Cert.Gcn.Spec.mm_apply _ _ _).symm
  have hx : ∀ k : Fin 128, iblk4 V c 0 t (ix2 p k)
      = V c main_v69 (ix2 ((((cfg4.win 2).blk t).view.emb (ix2 p q)) 0) k) := fun k => by
    show V c main_v69 (((cfg4.win 0).blk t).view.emb (ix2 p k)) = _
    refine congrArg _ (funext fun a => Fin.ext ?_)
    match a with
    | ⟨0, _⟩ => show win4_0.index t (0 : Fin 2) * 4000 + 1 * p.val = win4_2.index t (0 : Fin 2) * 4000 + 1 * p.val; omega
    | ⟨1, _⟩ => show win4_0.index t (1 : Fin 2) * 128 + 1 * k.val = k.val; omega
  have hw : ∀ k : Fin 128, iblk4 V c 1 t (ix2 k q)
      = V c main_arg14 (ix2 k ((((cfg4.win 2).blk t).view.emb (ix2 p q)) 1)) := fun k => by
    show V c main_arg14 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * q.val = win4_2.index t (1 : Fin 2) * 64 + 1 * q.val; omega
  exact Finset.sum_congr rfl fun k _ => by rw [hx k, hw k]

/-- An index of the output array is in point `t`'s block iff each coordinate is in the block's range on its axis. -/
theorem mem_blk4 (t : Fin cfg4.N) (i : S100000x64.Idx) :
    i ∈ ((cfg4.win 2).blk t).view.set ↔ ∀ a : Fin 2, win4_2.index t a * S4000x64.size a ≤ (i a).val
      ∧ (i a).val < win4_2.index t a * S4000x64.size a + S4000x64.size a := by
  show i ∈ ((View.whole main_v70).slice (win4_2.rect t)).set ↔ _
  rw [View.set_slice_whole, Rect.mem_set_unit]
  exact Iff.rfl

/-- Row `r` is in the block of point `r / 4000`: the blocks tile the array. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have ht : (i 0).val / 4000 < cfg4.N := by show (i 0).val / 4000 < 25; omega
  obtain ⟨e0, e1, e2, e3, e4, e5⟩ := blocks4 ⟨(i 0).val / 4000, ht⟩
  refine ⟨⟨(i 0).val / 4000, ht⟩, flush4_2 _, ?_⟩
  rw [mem_blk4]
  intro a
  match a with
  | ⟨0, _⟩ =>
    show win4_2.index ⟨(i 0).val / 4000, ht⟩ (0 : Fin 2) * 4000 ≤ (i 0).val
      ∧ (i 0).val < win4_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win4_2.index ⟨(i 0).val / 4000, ht⟩ (1 : Fin 2) * 64 ≤ (i 1).val
      ∧ (i 1).val < win4_2.index ⟨(i 0).val / 4000, ht⟩ (1 : Fin 2) * 64 + 64
    rw [e5]; omega

/-- The output array after the launch is the plain product of the two arrays the launch found. -/
theorem final4 (c : Dev nD) :
    (dat4 V c).arrAt 2 cfg4.N
      = Cert.Gcn.Spec.mm (M := 100000) (K := 128) (N := 64) (V c main_v69) (V c main_arg14) :=
  (dat4 V c).arrAt_eq_of_cover 2 _ (fun t _ => flushed4 V c t) cover4

end Cert.KernelIdeal.RegionValue

end
-- ==== Proof.Reg5.lean ====
/-
  Bias, normalisation, affine map and rectifier of launch 5 as one function of whole arrays.

  The launch walks 25 blocks of 4000 rows of a `[100000, 64]` array; its five parameter operands are `[1, 64]` arrays
  whose one block every point reads whole. At point `t` the body computes, entry by entry of rows
  `4000 t … 4000 t + 3999`, `max (g * ((a + b) - mu) * rsqrt (v + eps) + be) 0` with each parameter read at the entry's
  column, and the result is written back as the same rows of the output. The blocks tile the rows, so the output array
  ends as that function of the six arrays the launch found.
-/
import proofs.«144362_j47656957116627_1_alg».proof.Proof.Gen.KernelIdeal.Frame
import proofs.«144362_j47656957116627_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin2_5 : (![0, 0] : Fin 2 → Nat) = fun _ => 0 := funext fun a => by fin_cases a <;> rfl

/-- The body at `(p, q)` of its six loaded blocks: each parameter is read at `(0, q)`, the data block at `(p, q)`. -/
theorem body5_apply (a : Vec Ideal S4000x64 .f32) (b g mu v be : Vec Ideal S1x64 .f32) (p : Fin 4000) (q : Fin 64) :
    k5_pay1 a b g mu v be (ix2 p q)
      = FloatOps.maximumf (F := Ideal)
          (FloatOps.addf
            (FloatOps.mulf
              (FloatOps.mulf (g (ix2 (0 : Fin 1) q)) (FloatOps.subf (FloatOps.addf (a (ix2 p q)) (b (ix2 (0 : Fin 1) q))) (mu (ix2 (0 : Fin 1) q))))
              (FloatOps.rsqrt (FloatOps.addf (v (ix2 (0 : Fin 1) q)) (FloatOps.ofBits .f32 0x3727C5AC#32))))
            (be (ix2 (0 : Fin 1) q)))
          (FloatOps.ofBits .f32 0x00000000#32) := by
  have hrow : ∀ x : S1x64.Idx → Elt Ideal .f32, broadcastTo S4000x64 x broadcasts_S1x64_S4000x64 (ix2 p q) = x (ix2 (0 : Fin 1) q) :=
    fun x => broadcastTo_1b_ab_apply x _ p q
  unfold k5_pay1
  simp only [shapeCast_self, maximumf, addf, subf, mulf, rsqrt, broadcast, hrow]

/-! The printed index maps over the 25 points, window by window: the data operand's and the output's blocks move down
    the rows with the point, the five parameters' blocks stay at the origin. -/

set_option maxHeartbeats 4000000 in
theorem win5_0_at : ∀ t : Fin cfg5.N, win5_0.index t (0 : Fin 2) = t.val ∧ win5_0.index t (1 : Fin 2) = 0 :=
  (by decide +kernel : ∀ t : Fin grid5.N, _)
set_option maxHeartbeats 4000000 in
theorem win5_1_at : ∀ t : Fin cfg5.N, win5_1.index t (0 : Fin 2) = 0 ∧ win5_1.index t (1 : Fin 2) = 0 :=
  (by decide +kernel : ∀ t : Fin grid5.N, _)
set_option maxHeartbeats 4000000 in
theorem win5_2_at : ∀ t : Fin cfg5.N, win5_2.index t (0 : Fin 2) = 0 ∧ win5_2.index t (1 : Fin 2) = 0 :=
  (by decide +kernel : ∀ t : Fin grid5.N, _)
set_option maxHeartbeats 4000000 in
theorem win5_3_at : ∀ t : Fin cfg5.N, win5_3.index t (0 : Fin 2) = 0 ∧ win5_3.index t (1 : Fin 2) = 0 :=
  (by decide +kernel : ∀ t : Fin grid5.N, _)
set_option maxHeartbeats 4000000 in
theorem win5_4_at : ∀ t : Fin cfg5.N, win5_4.index t (0 : Fin 2) = 0 ∧ win5_4.index t (1 : Fin 2) = 0 :=
  (by decide +kernel : ∀ t : Fin grid5.N, _)
set_option maxHeartbeats 4000000 in
theorem win5_5_at : ∀ t : Fin cfg5.N, win5_5.index t (0 : Fin 2) = 0 ∧ win5_5.index t (1 : Fin 2) = 0 :=
  (by decide +kernel : ∀ t : Fin grid5.N, _)
set_option maxHeartbeats 4000000 in
theorem win5_6_at : ∀ t : Fin cfg5.N, win5_6.index t (0 : Fin 2) = t.val ∧ win5_6.index t (1 : Fin 2) = 0 :=
  (by decide +kernel : ∀ t : Fin grid5.N, _)

set_option maxHeartbeats 4000000 in
/-- What point `t` writes back is block `t` of the stage's function of the arrays the launch found. -/
theorem flushed5 (c : Dev nD) (t : Fin cfg5.N) :
    (dat5 V c).flushed 6 t = ((cfg5.win 6).blk t).view.read (Elt Ideal)
      (Cert.Gcn.Spec.bnRelu (R := 100000) (C := 64) (V c main_v83) (Cert.Gcn.Spec.row (C := 64) (V c main_v84))
        (Cert.Gcn.Spec.row (C := 64) (V c main_v85)) (Cert.Gcn.Spec.row (C := 64) (V c main_v86))
        (Cert.Gcn.Spec.row (C := 64) (V c main_v87)) (Cert.Gcn.Spec.row (C := 64) (V c main_v88))) := by
  show (cfg5.win 6).cut (grid5.coords t) ((dat5 V c).after 6 t) = _
  rw [after5_6]
  unfold out5_6
  rw [View.canon_unit_zero origin2_5]
  simp only [View.ld_unit_zero (S := S4000x64) origin2_5, View.ld_unit_zero (S := S1x64) origin2_5]
  obtain ⟨e00, e01⟩ := win5_0_at t
  obtain ⟨e10, e11⟩ := win5_1_at t
  obtain ⟨e20, e21⟩ := win5_2_at t
  obtain ⟨e30, e31⟩ := win5_3_at t
  obtain ⟨e40, e41⟩ := win5_4_at t
  obtain ⟨e50, e51⟩ := win5_5_at t
  obtain ⟨e60, e61⟩ := win5_6_at t
  funext j
  obtain ⟨p, q, rfl⟩ : ∃ (p : Fin 4000) (q : Fin 64), j = ix2 p q := ⟨j 0, j 1, eq_ix2 j⟩
  refine (body5_apply _ _ _ _ _ _ p q).trans ?_
  refine Eq.trans ?_ (Cert.Gcn.Spec.bnRelu_apply _ _ _ _ _ _ _).symm
  have ha : iblk5 V c 0 t (ix2 p q) = V c main_v83 (((cfg5.win 6).blk t).view.emb (ix2 p q)) := by
    show V c main_v83 (((cfg5.win 0).blk t).view.emb (ix2 p q)) = V c main_v83 (((cfg5.win 6).blk t).view.emb (ix2 p q))
    refine congrArg _ (funext fun ax => Fin.ext ?_)
    match ax with
    | ⟨0, _⟩ => show win5_0.index t (0 : Fin 2) * 4000 + 1 * p.val = win5_6.index t (0 : Fin 2) * 4000 + 1 * p.val; omega
    | ⟨1, _⟩ => show win5_0.index t (1 : Fin 2) * 64 + 1 * q.val = win5_6.index t (1 : Fin 2) * 64 + 1 * q.val; omega
  have hb : iblk5 V c 1 t (ix2 (0 : Fin 1) q)
      = Cert.Gcn.Spec.row (C := 64) (V c main_v84) (ix1 ((((cfg5.win 6).blk t).view.emb (ix2 p q)) 1)) := by
    show V c main_v84 (((cfg5.win 1).blk t).view.emb (ix2 (0 : Fin 1) q))
      = V c main_v84 (ix2 (0 : Fin 1) ((((cfg5.win 6).blk t).view.emb (ix2 p q)) 1))
    refine congrArg _ (funext fun ax => Fin.ext ?_)
    match ax with
    | ⟨0, _⟩ => show win5_1.index t (0 : Fin 2) * 1 + 1 * 0 = 0; omega
    | ⟨1, _⟩ => show win5_1.index t (1 : Fin 2) * 64 + 1 * q.val = win5_6.index t (1 : Fin 2) * 64 + 1 * q.val; omega
  have hg : iblk5 V c 2 t (ix2 (0 : Fin 1) q)
      = Cert.Gcn.Spec.row (C := 64) (V c main_v85) (ix1 ((((cfg5.win 6).blk t).view.emb (ix2 p q)) 1)) := by
    show V c main_v85 (((cfg5.win 2).blk t).view.emb (ix2 (0 : Fin 1) q))
      = V c main_v85 (ix2 (0 : Fin 1) ((((cfg5.win 6).blk t).view.emb (ix2 p q)) 1))
    refine congrArg _ (funext fun ax => Fin.ext ?_)
    match ax with
    | ⟨0, _⟩ => show win5_2.index t (0 : Fin 2) * 1 + 1 * 0 = 0; omega
    | ⟨1, _⟩ => show win5_2.index t (1 : Fin 2) * 64 + 1 * q.val = win5_6.index t (1 : Fin 2) * 64 + 1 * q.val; omega
  have hbe : iblk5 V c 3 t (ix2 (0 : Fin 1) q)
      = Cert.Gcn.Spec.row (C := 64) (V c main_v86) (ix1 ((((cfg5.win 6).blk t).view.emb (ix2 p q)) 1)) := by
    show V c main_v86 (((cfg5.win 3).blk t).view.emb (ix2 (0 : Fin 1) q))
      = V c main_v86 (ix2 (0 : Fin 1) ((((cfg5.win 6).blk t).view.emb (ix2 p q)) 1))
    refine congrArg _ (funext fun ax => Fin.ext ?_)
    match ax with
    | ⟨0, _⟩ => show win5_3.index t (0 : Fin 2) * 1 + 1 * 0 = 0; omega
    | ⟨1, _⟩ => show win5_3.index t (1 : Fin 2) * 64 + 1 * q.val = win5_6.index t (1 : Fin 2) * 64 + 1 * q.val; omega
  have hmu : iblk5 V c 4 t (ix2 (0 : Fin 1) q)
      = Cert.Gcn.Spec.row (C := 64) (V c main_v87) (ix1 ((((cfg5.win 6).blk t).view.emb (ix2 p q)) 1)) := by
    show V c main_v87 (((cfg5.win 4).blk t).view.emb (ix2 (0 : Fin 1) q))
      = V c main_v87 (ix2 (0 : Fin 1) ((((cfg5.win 6).blk t).view.emb (ix2 p q)) 1))
    refine congrArg _ (funext fun ax => Fin.ext ?_)
    match ax with
    | ⟨0, _⟩ => show win5_4.index t (0 : Fin 2) * 1 + 1 * 0 = 0; omega
    | ⟨1, _⟩ => show win5_4.index t (1 : Fin 2) * 64 + 1 * q.val = win5_6.index t (1 : Fin 2) * 64 + 1 * q.val; omega
  have hv : iblk5 V c 5 t (ix2 (0 : Fin 1) q)
      = Cert.Gcn.Spec.row (C := 64) (V c main_v88) (ix1 ((((cfg5.win 6).blk t).view.emb (ix2 p q)) 1)) := by
    show V c main_v88 (((cfg5.win 5).blk t).view.emb (ix2 (0 : Fin 1) q))
      = V c main_v88 (ix2 (0 : Fin 1) ((((cfg5.win 6).blk t).view.emb (ix2 p q)) 1))
    refine congrArg _ (funext fun ax => Fin.ext ?_)
    match ax with
    | ⟨0, _⟩ => show win5_5.index t (0 : Fin 2) * 1 + 1 * 0 = 0; omega
    | ⟨1, _⟩ => show win5_5.index t (1 : Fin 2) * 64 + 1 * q.val = win5_6.index t (1 : Fin 2) * 64 + 1 * q.val; omega
  rw [ha, hb, hg, hbe, hmu, hv]

/-- An index of the output array is in point `t`'s block iff each coordinate is in the block's range on its axis. -/
theorem mem_blk5 (t : Fin cfg5.N) (i : S100000x64.Idx) :
    i ∈ ((cfg5.win 6).blk t).view.set ↔ ∀ a : Fin 2, win5_6.index t a * S4000x64.size a ≤ (i a).val
      ∧ (i a).val < win5_6.index t a * S4000x64.size a + S4000x64.size a := by
  show i ∈ ((View.whole main_v89).slice (win5_6.rect t)).set ↔ _
  rw [View.set_slice_whole, Rect.mem_set_unit]
  exact Iff.rfl

/-- Row `r` is in the block of point `r / 4000`: the blocks tile the array. -/
theorem cover5 (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have ht : (i 0).val / 4000 < cfg5.N := by show (i 0).val / 4000 < 25; omega
  obtain ⟨e60, e61⟩ := win5_6_at ⟨(i 0).val / 4000, ht⟩
  refine ⟨⟨(i 0).val / 4000, ht⟩, flush5_6 _, ?_⟩
  rw [mem_blk5]
  intro a
  match a with
  | ⟨0, _⟩ =>
    show win5_6.index ⟨(i 0).val / 4000, ht⟩ (0 : Fin 2) * 4000 ≤ (i 0).val
      ∧ (i 0).val < win5_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win5_6.index ⟨(i 0).val / 4000, ht⟩ (1 : Fin 2) * 64 ≤ (i 1).val
      ∧ (i 1).val < win5_6.index ⟨(i 0).val / 4000, ht⟩ (1 : Fin 2) * 64 + 64
    rw [e61]; omega

/-- The output array after the launch is the stage's function of the six arrays the launch found. -/
theorem final5 (c : Dev nD) :
    (dat5 V c).arrAt 6 cfg5.N
      = Cert.Gcn.Spec.bnRelu (R := 100000) (C := 64) (V c main_v83) (Cert.Gcn.Spec.row (C := 64) (V c main_v84))
        (Cert.Gcn.Spec.row (C := 64) (V c main_v85)) (Cert.Gcn.Spec.row (C := 64) (V c main_v86))
        (Cert.Gcn.Spec.row (C := 64) (V c main_v87)) (Cert.Gcn.Spec.row (C := 64) (V c main_v88)) :=
  (dat5 V c).arrAt_eq_of_cover 6 _ (fun t _ => flushed5 V c t) cover5

end Cert.KernelIdeal.RegionValue

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.Reg6.lean ====
/-
  The read-out launch as one function of whole arrays.

  The launch walks 25 blocks of 4000 rows of a `[100000, 64]` array; the weights are one `[1, 64]` row and the bias one
  `[1, 1]` entry, read whole at every point. At point `t` the body multiplies each row of its block by the weight row,
  entry by entry, sums the 64 products of the row, adds the bias and applies the logistic function; the 4000 results
  are written back as rows `4000 t … 4000 t + 3999` of the one-column output. The blocks tile the rows, so the output
  array ends as the read-out of the three arrays the launch found.
-/
import proofs.«144362_j47656957116627_1_alg».proof.Proof.Gen.KernelIdeal.Frame
import proofs.«144362_j47656957116627_1_alg».proof.Proof.Spec
import proofs.«144362_j47656957116627_1_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin2_6 : (![0, 0] : Fin 2 → Nat) = fun _ => 0 := funext fun a => by fin_cases a <;> rfl

/-- The body at `(p, z)` of its three loaded blocks: the logistic function of row `p`'s sum of products with the
    weight row, plus the bias. -/
theorem body6_apply (h : Vec Ideal S4000x64 .f32) (w : Vec Ideal S1x64 .f32) (br : Vec Ideal S1x1 .f32)
    (p : Fin 4000) (z : Fin 1) :
    k6_pay1 h w br (ix2 p z)
      = FloatOps.logistic (FloatOps.addf (∑ k : Fin 64, h (ix2 p k) * w (ix2 (0 : Fin 1) k)) (br (ix2 (0 : Fin 1) (0 : Fin 1)))) := by
  have hz : z = (0 : Fin 1) := Fin.ext (by have := z.isLt; omega)
  subst hz
  have hsum : multiReduction (F := Ideal) .add [1] S4000 (mulf h (broadcastTo S4000x64 w broadcasts_S1x64_S4000x64))
      0x00000000#32 reduces_S4000x64_S4000 (.inl rfl) rfl (ix1 p) = ∑ k : Fin 64, h (ix2 p k) * w (ix2 (0 : Fin 1) k) := by
    refine (Cert.RowOps.multiReduction_add_row (a := 4000) (b := 64) _ _ _ _ _ p).trans ?_
    refine Finset.sum_congr rfl fun k _ => ?_
    show FloatOps.mulf (F := Ideal) (h (ix2 p k)) (broadcastTo S4000x64 w broadcasts_S1x64_S4000x64 (ix2 p k)) = _
    rw [broadcastTo_1b_ab_apply (a := 4000) (b := 64)]
    rfl
  have hcast := Cert.RowOps.shapeCast_a_a1_apply (a := 4000)
    (multiReduction (F := Ideal) .add [1] S4000 (mulf h (broadcastTo S4000x64 w broadcasts_S1x64_S4000x64))
      0x00000000#32 reduces_S4000x64_S4000 (.inl rfl) rfl) shapeCasts_S4000_S4000x1 p (0 : Fin 1)
  have hbr := broadcastTo_1b_ab_apply (a := 4000) (b := 1) br broadcasts_S1x1_S4000x1 p (0 : Fin 1)
  unfold k6_pay1
  simp only [shapeCast_self, logistic, addf]
  rw [hcast, hsum, hbr]

/-- The printed index maps over the 25 points: the data operand's and the output's blocks move down the rows with the
    point, the weight row's and the bias's blocks stay. -/
theorem blocks6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the read-out of the arrays the launch found. -/
theorem flushed6 (c : Dev nD) (t : Fin cfg6.N) :
    (dat6 V c).flushed 3 t = ((cfg6.win 3).blk t).view.read (Elt Ideal)
      (Cert.Gcn.Spec.head (R := 100000) (C := 64) (V c main_v89) (Cert.Gcn.Spec.col (C := 64) (V c main_v90))
        (Cert.Gcn.Spec.one (V c main_v91))) := by
  show (cfg6.win 3).cut (grid6.coords t) ((dat6 V c).after 3 t) = _
  rw [after6_3]
  unfold out6_3
  rw [View.canon_unit_zero origin2_6]
  simp only [View.ld_unit_zero (S := S4000x64) origin2_6, View.ld_unit_zero (S := S1x64) origin2_6,
    View.ld_unit_zero (S := S1x1) origin2_6]
  obtain ⟨e00, e01, e10, e11, e20, e21, e30, e31⟩ := blocks6 t
  funext j
  obtain ⟨p, z, rfl⟩ : ∃ (p : Fin 4000) (z : Fin 1), j = ix2 p z := ⟨j 0, j 1, eq_ix2 j⟩
  refine (body6_apply _ _ _ p z).trans ?_
  refine Eq.trans ?_ (Cert.Gcn.Spec.head_apply _ _ _ _).symm
  have hh : ∀ k : Fin 64, iblk6 V c 0 t (ix2 p k)
      = V c main_v89 (ix2 ((((cfg6.win 3).blk t).view.emb (ix2 p z)) 0) k) := fun k => by
    show V c main_v89 (((cfg6.win 0).blk t).view.emb (ix2 p k)) = _
    refine congrArg _ (funext fun ax => Fin.ext ?_)
    match ax with
    | ⟨0, _⟩ => show win6_0.index t (0 : Fin 2) * 4000 + 1 * p.val = win6_3.index t (0 : Fin 2) * 4000 + 1 * p.val; omega
    | ⟨1, _⟩ => show win6_0.index t (1 : Fin 2) * 64 + 1 * k.val = k.val; omega
  have hw : ∀ k : Fin 64, iblk6 V c 1 t (ix2 (0 : Fin 1) k)
      = Cert.Gcn.Spec.col (C := 64) (V c main_v90) (ix2 k (0 : Fin 1)) := fun k => by
    show V c main_v90 (((cfg6.win 1).blk t).view.emb (ix2 (0 : Fin 1) k)) = V c main_v90 (ix2 (0 : Fin 1) k)
    refine congrArg _ (funext fun ax => Fin.ext ?_)
    match ax with
    | ⟨0, _⟩ => show win6_1.index t (0 : Fin 2) * 1 + 1 * 0 = 0; omega
    | ⟨1, _⟩ => show win6_1.index t (1 : Fin 2) * 64 + 1 * k.val = k.val; omega
  have hb : iblk6 V c 2 t (ix2 (0 : Fin 1) (0 : Fin 1)) = Cert.Gcn.Spec.one (V c main_v91) (ix1 (0 : Fin 1)) := by
    show V c main_v91 (((cfg6.win 2).blk t).view.emb (ix2 (0 : Fin 1) (0 : Fin 1))) = V c main_v91 (ix2 (0 : Fin 1) (0 : Fin 1))
    refine congrArg _ (funext fun ax => Fin.ext ?_)
    match ax with
    | ⟨0, _⟩ => show win6_2.index t (0 : Fin 2) * 1 + 1 * 0 = 0; omega
    | ⟨1, _⟩ => show win6_2.index t (1 : Fin 2) * 1 + 1 * 0 = 0; omega
  rw [hb]
  refine congrArg (fun s => FloatOps.logistic (F := Ideal) (FloatOps.addf s (Cert.Gcn.Spec.one (V c main_v91) (ix1 (0 : Fin 1))))) ?_
  exact Finset.sum_congr rfl fun k _ => by rw [hh k, hw k]

/-- An index of the output array is in point `t`'s block iff each coordinate is in the block's range on its axis. -/
theorem mem_blk6 (t : Fin cfg6.N) (i : S100000x1.Idx) :
    i ∈ ((cfg6.win 3).blk t).view.set ↔ ∀ a : Fin 2, win6_3.index t a * S4000x1.size a ≤ (i a).val
      ∧ (i a).val < win6_3.index t a * S4000x1.size a + S4000x1.size a := by
  show i ∈ ((View.whole main_v92).slice (win6_3.rect t)).set ↔ _
  rw [View.set_slice_whole, Rect.mem_set_unit]
  exact Iff.rfl

/-- Row `r` is in the block of point `r / 4000`: the blocks tile the array. -/
theorem cover6 (i : S100000x1.Idx) :
    ∃ t : Fin cfg6.N, (cfg6.win 3).flush t = true ∧ i ∈ ((cfg6.win 3).blk t).view.set := by
  have hi0 : (i 0).val < 100000 := (i 0).isLt
  have hi1 : (i 1).val < 1 := (i 1).isLt
  have ht : (i 0).val / 4000 < cfg6.N := by show (i 0).val / 4000 < 25; omega
  obtain ⟨e00, e01, e10, e11, e20, e21, e30, e31⟩ := blocks6 ⟨(i 0).val / 4000, ht⟩
  refine ⟨⟨(i 0).val / 4000, ht⟩, flush6_3 _, ?_⟩
  rw [mem_blk6]
  intro a
  match a with
  | ⟨0, _⟩ =>
    show win6_3.index ⟨(i 0).val / 4000, ht⟩ (0 : Fin 2) * 4000 ≤ (i 0).val
      ∧ (i 0).val < win6_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win6_3.index ⟨(i 0).val / 4000, ht⟩ (1 : Fin 2) * 1 ≤ (i 1).val
      ∧ (i 1).val < win6_3.index ⟨(i 0).val / 4000, ht⟩ (1 : Fin 2) * 1 + 1
    rw [e31]; omega

/-- The output array after the launch is the read-out of the three arrays the launch found. -/
theorem final6 (c : Dev nD) :
    (dat6 V c).arrAt 3 cfg6.N
      = Cert.Gcn.Spec.head (R := 100000) (C := 64) (V c main_v89) (Cert.Gcn.Spec.col (C := 64) (V c main_v90))
        (Cert.Gcn.Spec.one (V c main_v91)) :=
  (dat6 V c).arrAt_eq_of_cover 3 _ (fun t _ => flushed6 V c t) cover6

end Cert.KernelIdeal.RegionValue

end
-- ==== Proof.Layers.lean ====
/-
  The network's stages as functions of whole arrays, in the host program's operations.

  Both programs compute the same edge data from the edge list — the source and target endpoints with one self loop per
  node appended, and per edge the product of the two endpoints' inverse square-root degrees — and run three layers:
  a dense product, then for every edge the source's row scaled by the edge's factor and accumulated into the target's
  row, then bias, normalisation, affine map and rectifier per column; the read-out is a product with a one-column
  matrix, a bias and `1 / (1 + exp (-x))`. Here each stage is ONE function of its operand arrays, spelt with the host
  program's operations, and the network is their composition.
-/
import proofs.«144362_j47656957116627_1_alg».proof.Proof.Gen.ReferenceIdeal
import Idealize.ShloMosaic.PureOps.Ideal

noncomputable section

namespace Cert.Gcn

open Cert.ReferenceIdeal Cert.ReferenceIdeal.Gen Idealize.ShloMosaic

/-- Float arrays and index arrays of a shape, at the ideal values. -/
abbrev A (s : Shape) := FVec Ideal s .f32
abbrev I (s : Shape) := IVec s 32

/-- The edges' source endpoints, one self loop per node appended: row 0 of the edge list, then `0 … n-1`. -/
def src (ei : I S2x1600000) : I S1700000 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩] concatenates_S1600000_S100000_S1700000_d0
/-- The edges' target endpoints, one self loop per node appended: row 1 of the edge list, then `0 … n-1`. -/
def dst (ei : I S2x1600000) : I S1700000 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩] concatenates_S1600000_S100000_S1700000_d0

/-- An index vector with its negative entries moved up by the number of nodes, as indexing an array by it does. -/
def wrap (s : I S1700000) : I S1700000 :=
  select (cmpi .slt s (broadcastInDim S1700000 ![] bcast_S_S1700000 (constantI S_ 32 0#32)))
    (addi s (broadcastInDim S1700000 ![] bcast_S_S1700000 (constantI S_ 32 100000#32))) s

/-- A node's degree: the number of edges (self loop included) that end in it, as a sum of ones accumulated by target. -/
def deg (d : I S1700000) : A S100000 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of the degree where the degree is positive, 0 elsewhere. -/
def dinv (d : I S1700000) : A S100000 :=
  select (cmpf .ogt (deg d) (broadcastInDim S100000 ![] bcast_S_S100000 (constant S_ .f32 0x00000000#32)))
    (Host.rsqrt (deg d))
    (broadcastInDim S100000 ![] bcast_S_S100000 (id (constant S_ .f32 0x00000000#32)))

/-- Per edge, the product of the inverse square roots of its two endpoints' degrees (0 where a degree is 0). -/
def norm (ei : I S2x1600000) : A S1700000 :=
  mulf
    (Host.gather gather_S100000_S1700000x1_S1700000_n_0_n_n_0_1_1 (dinv (dst ei))
      (broadcastInDim S1700000x1 ![0] bcast_S1700000_S1700000x1_0 (wrap (src ei))))
    (Host.gather gather_S100000_S1700000x1_S1700000_n_0_n_n_0_1_1 (dinv (dst ei))
      (broadcastInDim S1700000x1 ![0] bcast_S1700000_S1700000x1_0 (wrap (dst ei))))

/-- One aggregation over the edges, 128 columns: row `s e` of `h` scaled by `n e`, accumulated into row `d e`
    of a zero array, over all edges `e`. -/
def agg128 (h : A S100000x128) (s d : I S1700000) (n : A S1700000) : A S100000x128 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf
      (Host.gather gather_S100000x128_S1700000x1_S1700000x128_1_0_n_n_0_1_1128 h
        (broadcastInDim S1700000x1 ![0] bcast_S1700000_S1700000x1_0 (wrap s)))
      (broadcastInDim S1700000x128 ![0, 1] bcast_S1700000x1_S1700000x128_0_1
        (broadcastInDim S1700000x1 ![0] bcast_S1700000_S1700000x1_0 n)))

/-- The same aggregation over 64 columns. -/
def agg64 (h : A S100000x64) (s d : I S1700000) (n : A S1700000) : A S100000x64 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf
      (Host.gather gather_S100000x64_S1700000x1_S1700000x64_1_0_n_n_0_1_164 h
        (broadcastInDim S1700000x1 ![0] bcast_S1700000_S1700000x1_0 (wrap s)))
      (broadcastInDim S1700000x64 ![0, 1] bcast_S1700000x1_S1700000x64_0_1
        (broadcastInDim S1700000x1 ![0] bcast_S1700000_S1700000x1_0 n)))

/-- The three dense products. -/
def mm1 (x : A S100000x256) (w : A S256x128) : A S100000x128 :=
  Host.dotGeneral dot_S100000x256_S256x128_S100000x128_1_0_0_1_n_n none x w
def mm2 (x : A S100000x128) (w : A S128x128) : A S100000x128 :=
  Host.dotGeneral dot_S100000x128_S128x128_S100000x128_1_0_0_1_n_n none x w
def mm3 (x : A S100000x128) (w : A S128x64) : A S100000x64 :=
  Host.dotGeneral dot_S100000x128_S128x64_S100000x64_1_0_0_1_n_n none x w

/-- A vector of 128 per-column parameters spread over the rows of a `[100000, 128]` array. -/
def rows128 (p : A S128) : A S100000x128 :=
  broadcastInDim S100000x128 ![0, 1] bcast_S1x128_S100000x128_0_1 (broadcastInDim S1x128 ![1] bcast_S128_S1x128_1 p)
/-- A vector of 64 per-column parameters spread over the rows of a `[100000, 64]` array. -/
def rows64 (p : A S64) : A S100000x64 :=
  broadcastInDim S100000x64 ![0, 1] bcast_S1x64_S100000x64_0_1 (broadcastInDim S1x64 ![1] bcast_S64_S1x64_1 p)

/-- Bias, normalisation by the running statistics, affine map and rectifier, 128 columns:
    `max (g * ((a + b) - mu) * rsqrt (v + eps) + be) 0` with the parameters spread over the rows. -/
def bn128 (a : A S100000x128) (b g be mu v : A S128) : A S100000x128 :=
  maximumf
    (addf
      (mulf (mulf (rows128 g) (subf (addf a (rows128 b)) (rows128 mu)))
        (rows128 (Host.rsqrt (addf v (broadcastInDim S128 ![] bcast_S_S128 (constant S_ .f32 0x3727C5AC#32))))))
      (rows128 be))
    (broadcastInDim S100000x128 ![] bcast_S_S100000x128 (constant S_ .f32 0x00000000#32))

/-- The same over 64 columns. -/
def bn64 (a : A S100000x64) (b g be mu v : A S64) : A S100000x64 :=
  maximumf
    (addf
      (mulf (mulf (rows64 g) (subf (addf a (rows64 b)) (rows64 mu)))
        (rows64 (Host.rsqrt (addf v (broadcastInDim S64 ![] bcast_S_S64 (constant S_ .f32 0x3727C5AC#32))))))
      (rows64 be))
    (broadcastInDim S100000x64 ![] bcast_S_S100000x64 (constant S_ .f32 0x00000000#32))

/-- The read-out: `1 / (1 + exp (-(h · wr + br)))`, the one bias spread over the rows. -/
def readout (h : A S100000x64) (wr : A S64x1) (br : A S1) : A S100000x1 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf
        (addf (Host.dotGeneral dot_S100000x64_S64x1_S100000x1_1_0_0_1_n_n none h wr)
          (broadcastInDim S100000x1 ![0, 1] bcast_S1x1_S100000x1_0_1 (broadcastInDim S1x1 ![1] bcast_S1_S1x1_1 br))))))

/-- The whole network as the composition of its stages. -/
def net (x : A S100000x256) (ei : I S2x1600000) (w1 : A S256x128) (b1 g1 be1 mu1 v1 : A S128)
    (w2 : A S128x128) (b2 g2 be2 mu2 v2 : A S128) (w3 : A S128x64) (b3 g3 be3 mu3 v3 : A S64)
    (wr : A S64x1) (br : A S1) : A S100000x1 :=
  readout
    (bn64 (agg64 (mm3
      (bn128 (agg128 (mm2
        (bn128 (agg128 (mm1 x w1) (src ei) (dst ei) (norm ei)) b1 g1 be1 mu1 v1)
        w2) (src ei) (dst ei) (norm ei)) b2 g2 be2 mu2 v2)
      w3) (src ei) (dst ei) (norm ei)) b3 g3 be3 mu3 v3)
    wr br

end Cert.Gcn

end
-- ==== Proof.LayersSpec.lean ====
/-
  The network's dense stages, spelt in the host program's operations, are the index-wise specifications.

  Read at an index of the result: a plain product is the sum over the contracted coordinate; a vector of per-column
  parameters placed as the one row of a `[1, C]` array and spread over the rows is, at `(r, j)`, its entry `j`; a
  constant spread over an array is the constant at every index; the pointwise operations act entry by entry. The
  read-out's `1 / (1 + exp (-x))`, both ones the binary pattern of `1`, is the logistic function of `x`. Three
  program-independent facts close the module: a vector, a column and a single entry are recovered from their casts to
  one-row arrays by the re-indexings of the specification.
-/
import proofs.«144362_j47656957116627_1_alg».proof.Proof.Layers
import proofs.«144362_j47656957116627_1_alg».proof.Proof.Spec
import proofs.«144362_j47656957116627_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.Gcn

open Cert.ReferenceIdeal Idealize.ShloMosaic Idealize.ShloMosaic.ValueIdx

/-! ## The dense products -/

/-- The first product at `(r, j)` is the sum over `k` of `x (r, k) * w (k, j)`: its dimension numbers are those of a
    plain product. -/
theorem mm1_eq (x : A S100000x256) (w : A S256x128) :
    mm1 x w = Spec.mm (M := 100000) (K := 256) (N := 128) x w := by
  funext i
  refine (congrArg (mm1 x w) (eq_ix2 i)).trans ?_
  exact Cert.PlainDot.dotGeneral_plain_apply none .single x w (i 0) (i 1)

/-- The second product, likewise. -/
theorem mm2_eq (x : A S100000x128) (w : A S128x128) :
    mm2 x w = Spec.mm (M := 100000) (K := 128) (N := 128) x w := by
  funext i
  refine (congrArg (mm2 x w) (eq_ix2 i)).trans ?_
  exact Cert.PlainDot.dotGeneral_plain_apply none .single x w (i 0) (i 1)

/-- The third product, likewise. -/
theorem mm3_eq (x : A S100000x128) (w : A S128x64) :
    mm3 x w = Spec.mm (M := 100000) (K := 128) (N := 64) x w := by
  funext i
  refine (congrArg (mm3 x w) (eq_ix2 i)).trans ?_
  exact Cert.PlainDot.dotGeneral_plain_apply none .single x w (i 0) (i 1)

/-! ## Per-column parameters spread over the rows -/

/-- A vector of `C` entries placed as the one row of a `[1, C]` array and spread over `R` rows reads, at `(r, j)`, its
    entry `j`: the row coordinate is dropped on the unit axis, the column coordinate is kept (or, when `C = 1`, is the
    only one). -/
theorem rows_apply {α : Type} {R C : ℕ} (p : (⟨1, ![C]⟩ : Shape).Idx → α)
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (i : (⟨2, ![R, C]⟩ : Shape).Idx) :
    broadcastInDim ⟨2, ![R, C]⟩ ![0, 1] h2 (broadcastInDim ⟨2, ![1, C]⟩ ![1] h1 p) i = p (ix1 (i 1)) := by
  have hC : ∀ c : Fin C, c.val = if C = 1 then 0 else c.val := fun c => by
    by_cases hc : C = 1
    · rw [if_pos hc]; have := c.isLt; omega
    · rw [if_neg hc]
  refine (broadcastInDim_apply _ h2 _ i (ix2 (0 : Fin 1) (i 1)) (fun a => match a with
    | ⟨0, _⟩ => by show 0 = if (1 : Nat) = 1 then 0 else (i 0).val; rw [if_pos rfl]
    | ⟨1, _⟩ => hC (i 1))).trans ?_
  exact broadcastInDim_apply _ h1 p (ix2 (0 : Fin 1) (i 1)) (ix1 (i 1)) (fun a => match a with
    | ⟨0, _⟩ => hC (i 1))

theorem rows128_apply (p : A S128) (i : S100000x128.Idx) : rows128 p i = p (ix1 (i 1)) :=
  rows_apply (R := 100000) (C := 128) p _ _ i

theorem rows64_apply (p : A S64) (i : S100000x64.Idx) : rows64 p i = p (ix1 (i 1)) :=
  rows_apply (R := 100000) (C := 64) p _ _ i

/-! ## Bias, normalisation, affine map and rectifier -/

/-- At `(r, j)` the 128-column stage reads every parameter at `j`; the two constants are read as they stand. -/
theorem bn128_eq (a : A S100000x128) (b g be mu v : A S128) :
    bn128 a b g be mu v = Spec.bnRelu (R := 100000) (C := 128) a b g be mu v := by
  funext i
  show FloatOps.maximumf
      (FloatOps.addf
        (FloatOps.mulf
          (FloatOps.mulf (rows128 g i) (FloatOps.subf (FloatOps.addf (a i) (rows128 b i)) (rows128 mu i)))
          (rows128 (Host.rsqrt (addf v (broadcastInDim S128 ![] _ (constant S_ .f32 0x3727C5AC#32)))) i))
        (rows128 be i))
      (FloatOps.ofBits .f32 0x00000000#32) = _
  simp only [rows128_apply]
  rfl

/-- The 64-column stage, likewise. -/
theorem bn64_eq (a : A S100000x64) (b g be mu v : A S64) :
    bn64 a b g be mu v = Spec.bnRelu (R := 100000) (C := 64) a b g be mu v := by
  funext i
  show FloatOps.maximumf
      (FloatOps.addf
        (FloatOps.mulf
          (FloatOps.mulf (rows64 g i) (FloatOps.subf (FloatOps.addf (a i) (rows64 b i)) (rows64 mu i)))
          (rows64 (Host.rsqrt (addf v (broadcastInDim S64 ![] _ (constant S_ .f32 0x3727C5AC#32)))) i))
        (rows64 be i))
      (FloatOps.ofBits .f32 0x00000000#32) = _
  simp only [rows64_apply]
  rfl

/-! ## The read-out -/

/-- The binary pattern `0x3F800000` is the number one. -/
theorem ofBits_one : FloatOps.ofBits (F := Ideal) .f32 0x3F800000#32 = 1 := by
  show Ideal.ofBits .f32 0x3F800000#32 = 1
  simp [Ideal.ofBits, Ideal.ieee, -EReal.coe_mul]; norm_num

/-- The read-out at row `r` (its one column): the product with the one-column matrix is the sum over `k` of
    `h (r, k) * wr (k, 0)`, the bias spread over the rows is its one entry, and `1 / (1 + exp (-x))` with both ones the
    pattern of one is the logistic function of `x`. -/
theorem readout_apply (h : A S100000x64) (wr : A S64x1) (br : A S1) (r : Fin 100000) :
    readout h wr br (ix2 r (0 : Fin 1)) = Spec.head (R := 100000) (C := 64) h wr br (ix2 r (0 : Fin 1)) := by
  show FloatOps.hostDivf (F := Ideal) (φ := .f32) (FloatOps.ofBits .f32 0x3F800000#32)
      (FloatOps.addf (FloatOps.ofBits .f32 0x3F800000#32)
        (FloatOps.hostUnary .exp (FloatOps.hostNegf
          (FloatOps.addf
            (FloatOps.dotGeneral (DotDims.plain 100000 64 1) none .single h wr (ix2 r (0 : Fin 1)))
            (broadcastInDim ⟨2, ![100000, 1]⟩ ![0, 1] _
              (broadcastInDim ⟨2, ![1, 1]⟩ ![1] _ br) (ix2 r (0 : Fin 1))))))) = _
  rw [Cert.PlainDot.dotGeneral_plain_apply, rows_apply, ofBits_one]
  rfl

theorem readout_eq (h : A S100000x64) (wr : A S64x1) (br : A S1) :
    readout h wr br = Spec.head (R := 100000) (C := 64) h wr br := by
  funext i
  have hi : i = ix2 (i 0) (0 : Fin 1) := (eq_ix2 i).trans (congrArg (ix2 (i 0)) (Subsingleton.elim (α := Fin 1) _ _))
  rw [hi]
  exact readout_apply h wr br (i 0)

/-! ## A vector, a column and a single entry recovered from their one-row casts -/

/-- The one row of a vector cast to a one-row array is the vector. -/
theorem row_shapeCast {C : ℕ} (p : FVec Ideal ⟨1, ![C]⟩ .f32) (h : (⟨1, ![C]⟩ : Shape).ShapeCasts ⟨2, ![1, C]⟩) :
    Spec.row (shapeCast ⟨2, ![1, C]⟩ p h) = p := by
  funext j
  exact (shapeCast_a_1a_apply p h 0 (j 0)).trans (congrArg p (eq_ix1 j).symm)

/-- The one row of a column cast to a one-row array, read back as a column, is the column: entry `(k, 0)` of the
    column and entry `(0, k)` of the row sit at the same row-major position `k`. -/
theorem col_shapeCast {C : ℕ} (wr : FVec Ideal ⟨2, ![C, 1]⟩ .f32)
    (h : (⟨2, ![C, 1]⟩ : Shape).ShapeCasts ⟨2, ![1, C]⟩) : Spec.col (shapeCast ⟨2, ![1, C]⟩ wr h) = wr := by
  funext i
  exact shapeCast_apply wr h (ix2 (0 : Fin 1) (i 0)) i (by
    have h1 : (i 1).val = 0 := by have := idx2_lt1 i; omega
    rw [Shape.rowMajor_val_two, Shape.rowMajor_val_two]
    show (i 0).val * 1 + (i 1).val = 0 * C + (i 0).val
    rw [h1, Nat.mul_one, Nat.add_zero, Nat.zero_mul, Nat.zero_add])

/-- The one entry of a one-entry vector cast to a `[1, 1]` array is the vector. -/
theorem one_shapeCast (br : FVec Ideal ⟨1, ![1]⟩ .f32) (h : (⟨1, ![1]⟩ : Shape).ShapeCasts ⟨2, ![1, 1]⟩) :
    Spec.one (shapeCast ⟨2, ![1, 1]⟩ br h) = br := by
  funext j
  have hj : j = ix1 (0 : Fin 1) := (eq_ix1 j).trans (congrArg ix1 (Subsingleton.elim (α := Fin 1) _ _))
  rw [hj]
  exact shapeCast_a_1a_apply br h 0 0

end Cert.Gcn

end
-- ==== Proof.KChain.lean ====
/- The result array of the kernel program's run, as the network of the launch memory.

   The run's buffer contents at each segment boundary are a fold through @main. Walking that fold forward: the first
   host stretches compute the edge data from the edge list; each launch leaves in its output array one stage's
   function of the arrays it found (a dense product, or bias, normalisation, affine map and rectifier, or the
   read-out); each later host stretch aggregates the last product over the edges and reshapes the next launch's
   parameter vectors. Every operand is brought back to the launch memory, since nothing in between writes it, and the
   stages compose to the network. All of it at the ideal values and for any core `c`. -/
import proofs.«144362_j47656957116627_1_alg».proof.Proof.KKeep
import proofs.«144362_j47656957116627_1_alg».proof.Proof.Reg0
import proofs.«144362_j47656957116627_1_alg».proof.Proof.Reg1
import proofs.«144362_j47656957116627_1_alg».proof.Proof.Reg2
import proofs.«144362_j47656957116627_1_alg».proof.Proof.Reg3
import proofs.«144362_j47656957116627_1_alg».proof.Proof.Reg4
import proofs.«144362_j47656957116627_1_alg».proof.Proof.Reg5
import proofs.«144362_j47656957116627_1_alg».proof.Proof.Reg6
import proofs.«144362_j47656957116627_1_alg».proof.Proof.Layers
import proofs.«144362_j47656957116627_1_alg».proof.Proof.LayersSpec
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The host stretches before the first launch, from any contents `V`

    Each fact reads one result buffer after a stretch as the stretch's operations applied to what the stretch found. -/

section Stretch
variable (V : Valuation τ sig (Elt Ideal))

/-- The source endpoints with the self loops: row 0 of the edge list, reshaped, then the node numbers. -/
theorem src_of : StableHlo.after hostOps0 V (Proc.devRef .tc main_v3) = Cert.Gcn.src (V (Proc.devRef .tc main_arg1)) := by
  after_results_simp
  rfl
/-- The target endpoints with the self loops: row 1 of the edge list, reshaped, then the node numbers. -/
theorem dst_of : StableHlo.after hostOps0 V (Proc.devRef .tc main_v6) = Cert.Gcn.dst (V (Proc.devRef .tc main_arg1)) := by
  after_results_simp
  rfl
/-- Where the degree (ones accumulated by target) is positive. -/
theorem pos_of : StableHlo.after hostOps0 V (Proc.devRef .tc main_v12)
    = cmpf .ogt (Cert.Gcn.deg (Cert.Gcn.dst (V (Proc.devRef .tc main_arg1))))
        (broadcastInDim S100000 ![] bcast_S_S100000 (constant S_ .f32 0x00000000#32)) := by
  after_results_simp
  rfl
/-- The inverse square root of the degree. -/
theorem rsq_of : StableHlo.after hostOps0 V (Proc.devRef .tc main_v13)
    = Host.rsqrt (Cert.Gcn.deg (Cert.Gcn.dst (V (Proc.devRef .tc main_arg1)))) := by
  after_results_simp
  rfl
/-- The zero that replaces the inverse square root where the degree is zero. -/
theorem zero_of : StableHlo.after hostOps0 V (Proc.devRef .tc main_cst_2) = (constant S_ .f32 0x00000000#32 : FVec Ideal S_ .f32) := by
  after_results_simp
/-- The selection between the two, per node. -/
theorem dinv_of : StableHlo.after hostOps0_1 V (Proc.devRef .tc main_v14)
    = select (V (Proc.devRef .tc main_v12) : (⟨S100000, .i1⟩ : BufTy).Contents (Elt Ideal)) (V (Proc.devRef .tc main_v13) : (⟨S100000, .f32⟩ : BufTy).Contents (Elt Ideal))
        (broadcastInDim S100000 ![] bcast_S_S100000 (id (V (Proc.devRef .tc main_cst_2) : (⟨S_, .f32⟩ : BufTy).Contents (Elt Ideal)))) := by
  after_results_simp
  rfl
/-- Per edge, the product of the two endpoints' factors. -/
theorem norm_of : StableHlo.after hostOps0_2 V (Proc.devRef .tc main_v29)
    = (mulf
        (Host.gather gather_S100000_S1700000x1_S1700000_n_0_n_n_0_1_1 (V (Proc.devRef .tc main_v14) : (⟨S100000, .f32⟩ : BufTy).Contents (Elt Ideal))
          (broadcastInDim S1700000x1 ![0] bcast_S1700000_S1700000x1_0 (Cert.Gcn.wrap (V (Proc.devRef .tc main_v3)))))
        (Host.gather gather_S100000_S1700000x1_S1700000_n_0_n_n_0_1_1 (V (Proc.devRef .tc main_v14) : (⟨S100000, .f32⟩ : BufTy).Contents (Elt Ideal))
          (broadcastInDim S1700000x1 ![0] bcast_S1700000_S1700000x1_0 (Cert.Gcn.wrap (V (Proc.devRef .tc main_v6))))) : FVec Ideal S1700000 .f32) := by
  after_results_simp
  rfl

end Stretch

variable (m : (ℓ : Loc nD τ sig) → Buf (Elt Ideal) ℓ) (ρ : Dev nD → PrngReg) (c : Dev nD)

/-! ## The edge data at the launches' entries and exits -/

theorem W1_src : W1 m ρ c (Proc.devRef .tc main_v3) = Cert.Gcn.src (m ((c : Thread nD τ).loc main_arg1)) := src_of (W0 m ρ c)
theorem W1_dst : W1 m ρ c (Proc.devRef .tc main_v6) = Cert.Gcn.dst (m ((c : Thread nD τ).loc main_arg1)) := dst_of (W0 m ρ c)
theorem W2_src : W2 m ρ c (Proc.devRef .tc main_v3) = Cert.Gcn.src (m ((c : Thread nD τ).loc main_arg1)) :=
  (by keep_host hostOps0_1 : W2 m ρ c (Proc.devRef .tc main_v3) = W1 m ρ c (Proc.devRef .tc main_v3)).trans (W1_src m ρ c)
theorem W2_dst : W2 m ρ c (Proc.devRef .tc main_v6) = Cert.Gcn.dst (m ((c : Thread nD τ).loc main_arg1)) :=
  (by keep_host hostOps0_1 : W2 m ρ c (Proc.devRef .tc main_v6) = W1 m ρ c (Proc.devRef .tc main_v6)).trans (W1_dst m ρ c)
/-- Per node, the inverse square root of its degree, 0 where the degree is 0. -/
theorem W2_dinv : W2 m ρ c (Proc.devRef .tc main_v14) = Cert.Gcn.dinv (Cert.Gcn.dst (m ((c : Thread nD τ).loc main_arg1))) := by
  refine (dinv_of (W1 m ρ c)).trans ?_
  rw [show W1 m ρ c (Proc.devRef .tc main_v12) = _ from pos_of (W0 m ρ c), show W1 m ρ c (Proc.devRef .tc main_v13) = _ from rsq_of (W0 m ρ c),
    show W1 m ρ c (Proc.devRef .tc main_cst_2) = _ from zero_of (W0 m ρ c)]
  rfl
theorem W3_src : W3 m ρ c (Proc.devRef .tc main_v3) = Cert.Gcn.src (m ((c : Thread nD τ).loc main_arg1)) :=
  (by keep_host hostOps0_2 : W3 m ρ c (Proc.devRef .tc main_v3) = W2 m ρ c (Proc.devRef .tc main_v3)).trans (W2_src m ρ c)
theorem W3_dst : W3 m ρ c (Proc.devRef .tc main_v6) = Cert.Gcn.dst (m ((c : Thread nD τ).loc main_arg1)) :=
  (by keep_host hostOps0_2 : W3 m ρ c (Proc.devRef .tc main_v6) = W2 m ρ c (Proc.devRef .tc main_v6)).trans (W2_dst m ρ c)
theorem W3_norm : W3 m ρ c (Proc.devRef .tc main_v29) = Cert.Gcn.norm (m ((c : Thread nD τ).loc main_arg1)) := by
  refine (norm_of (W2 m ρ c)).trans ?_
  rw [W2_dinv m ρ c, W2_src m ρ c, W2_dst m ρ c]
  rfl
theorem W4_src : W4 m ρ c (Proc.devRef .tc main_v3) = Cert.Gcn.src (m ((c : Thread nD τ).loc main_arg1)) := (Keep.W4_v3 m ρ c).trans (W3_src m ρ c)
theorem W4_dst : W4 m ρ c (Proc.devRef .tc main_v6) = Cert.Gcn.dst (m ((c : Thread nD τ).loc main_arg1)) := (Keep.W4_v6 m ρ c).trans (W3_dst m ρ c)
theorem W4_norm : W4 m ρ c (Proc.devRef .tc main_v29) = Cert.Gcn.norm (m ((c : Thread nD τ).loc main_arg1)) := (Keep.W4_v29 m ρ c).trans (W3_norm m ρ c)
theorem W7_src : W7 m ρ c (Proc.devRef .tc main_v3) = Cert.Gcn.src (m ((c : Thread nD τ).loc main_arg1)) := (Keep.W7_v3 m ρ c).trans (W3_src m ρ c)
theorem W7_dst : W7 m ρ c (Proc.devRef .tc main_v6) = Cert.Gcn.dst (m ((c : Thread nD τ).loc main_arg1)) := (Keep.W7_v6 m ρ c).trans (W3_dst m ρ c)
theorem W7_norm : W7 m ρ c (Proc.devRef .tc main_v29) = Cert.Gcn.norm (m ((c : Thread nD τ).loc main_arg1)) := (Keep.W7_v29 m ρ c).trans (W3_norm m ρ c)
theorem W10_src : W10 m ρ c (Proc.devRef .tc main_v3) = Cert.Gcn.src (m ((c : Thread nD τ).loc main_arg1)) := (Keep.W10_v3 m ρ c).trans (W3_src m ρ c)
theorem W10_dst : W10 m ρ c (Proc.devRef .tc main_v6) = Cert.Gcn.dst (m ((c : Thread nD τ).loc main_arg1)) := (Keep.W10_v6 m ρ c).trans (W3_dst m ρ c)
theorem W10_norm : W10 m ρ c (Proc.devRef .tc main_v29) = Cert.Gcn.norm (m ((c : Thread nD τ).loc main_arg1)) := (Keep.W10_v29 m ρ c).trans (W3_norm m ρ c)

/-! ## The host stretch before the second launch -/

/-- The aggregation over the edges of the product the launch before left. -/
theorem W5_v43 : W5 m ρ c (Proc.devRef .tc main_v43)
    = Cert.Gcn.agg128 (W4 m ρ c (Proc.devRef .tc main_v30)) (Cert.Gcn.src (m ((c : Thread nD τ).loc main_arg1))) (Cert.Gcn.dst (m ((c : Thread nD τ).loc main_arg1))) (Cert.Gcn.norm (m ((c : Thread nD τ).loc main_arg1))) := by
  have h : W5 m ρ c (Proc.devRef .tc main_v43)
      = Cert.Gcn.agg128 (W4 m ρ c (Proc.devRef .tc main_v30)) (W4 m ρ c (Proc.devRef .tc main_v3)) (W4 m ρ c (Proc.devRef .tc main_v6)) (W4 m ρ c (Proc.devRef .tc main_v29)) := by
    show StableHlo.after hostOps1 (W4 m ρ c) (Proc.devRef .tc main_v43) = _
    after_results_simp
    rfl
  rw [h, W4_src m ρ c, W4_dst m ρ c, W4_norm m ρ c]
theorem W5_row44 : Cert.Gcn.Spec.row (C := 128) (W5 m ρ c (Proc.devRef .tc main_v44)) = (m ((c : Thread nD τ).loc main_arg3)) := by
  have h : W5 m ρ c (Proc.devRef .tc main_v44) = shapeCast S1x128 (W4 m ρ c (Proc.devRef .tc main_arg3)) shapeCasts_S128_S1x128 := by
    show StableHlo.after hostOps1 (W4 m ρ c) (Proc.devRef .tc main_v44) = _
    after_results_simp
    rfl
  rw [h, Keep.W4_arg3 m ρ c]
  exact Cert.Gcn.row_shapeCast _ _
theorem W5_row45 : Cert.Gcn.Spec.row (C := 128) (W5 m ρ c (Proc.devRef .tc main_v45)) = (m ((c : Thread nD τ).loc main_arg4)) := by
  have h : W5 m ρ c (Proc.devRef .tc main_v45) = shapeCast S1x128 (W4 m ρ c (Proc.devRef .tc main_arg4)) shapeCasts_S128_S1x128 := by
    show StableHlo.after hostOps1 (W4 m ρ c) (Proc.devRef .tc main_v45) = _
    after_results_simp
    rfl
  rw [h, Keep.W4_arg4 m ρ c]
  exact Cert.Gcn.row_shapeCast _ _
theorem W5_row46 : Cert.Gcn.Spec.row (C := 128) (W5 m ρ c (Proc.devRef .tc main_v46)) = (m ((c : Thread nD τ).loc main_arg5)) := by
  have h : W5 m ρ c (Proc.devRef .tc main_v46) = shapeCast S1x128 (W4 m ρ c (Proc.devRef .tc main_arg5)) shapeCasts_S128_S1x128 := by
    show StableHlo.after hostOps1 (W4 m ρ c) (Proc.devRef .tc main_v46) = _
    after_results_simp
    rfl
  rw [h, Keep.W4_arg5 m ρ c]
  exact Cert.Gcn.row_shapeCast _ _
theorem W5_row47 : Cert.Gcn.Spec.row (C := 128) (W5 m ρ c (Proc.devRef .tc main_v47)) = (m ((c : Thread nD τ).loc main_arg6)) := by
  have h : W5 m ρ c (Proc.devRef .tc main_v47) = shapeCast S1x128 (W4 m ρ c (Proc.devRef .tc main_arg6)) shapeCasts_S128_S1x128 := by
    show StableHlo.after hostOps1 (W4 m ρ c) (Proc.devRef .tc main_v47) = _
    after_results_simp
    rfl
  rw [h, Keep.W4_arg6 m ρ c]
  exact Cert.Gcn.row_shapeCast _ _
theorem W5_row48 : Cert.Gcn.Spec.row (C := 128) (W5 m ρ c (Proc.devRef .tc main_v48)) = (m ((c : Thread nD τ).loc main_arg7)) := by
  have h : W5 m ρ c (Proc.devRef .tc main_v48) = shapeCast S1x128 (W4 m ρ c (Proc.devRef .tc main_arg7)) shapeCasts_S128_S1x128 := by
    show StableHlo.after hostOps1 (W4 m ρ c) (Proc.devRef .tc main_v48) = _
    after_results_simp
    rfl
  rw [h, Keep.W4_arg7 m ρ c]
  exact Cert.Gcn.row_shapeCast _ _

/-! ## The host stretch before the fourth launch -/

/-- The aggregation over the edges of the product the launch before left. -/
theorem W8_v63 : W8 m ρ c (Proc.devRef .tc main_v63)
    = Cert.Gcn.agg128 (W7 m ρ c (Proc.devRef .tc main_v50)) (Cert.Gcn.src (m ((c : Thread nD τ).loc main_arg1))) (Cert.Gcn.dst (m ((c : Thread nD τ).loc main_arg1))) (Cert.Gcn.norm (m ((c : Thread nD τ).loc main_arg1))) := by
  have h : W8 m ρ c (Proc.devRef .tc main_v63)
      = Cert.Gcn.agg128 (W7 m ρ c (Proc.devRef .tc main_v50)) (W7 m ρ c (Proc.devRef .tc main_v3)) (W7 m ρ c (Proc.devRef .tc main_v6)) (W7 m ρ c (Proc.devRef .tc main_v29)) := by
    show StableHlo.after hostOps3 (W7 m ρ c) (Proc.devRef .tc main_v63) = _
    after_results_simp
    rfl
  rw [h, W7_src m ρ c, W7_dst m ρ c, W7_norm m ρ c]
theorem W8_row64 : Cert.Gcn.Spec.row (C := 128) (W8 m ρ c (Proc.devRef .tc main_v64)) = (m ((c : Thread nD τ).loc main_arg9)) := by
  have h : W8 m ρ c (Proc.devRef .tc main_v64) = shapeCast S1x128 (W7 m ρ c (Proc.devRef .tc main_arg9)) shapeCasts_S128_S1x128 := by
    show StableHlo.after hostOps3 (W7 m ρ c) (Proc.devRef .tc main_v64) = _
    after_results_simp
    rfl
  rw [h, Keep.W7_arg9 m ρ c]
  exact Cert.Gcn.row_shapeCast _ _
theorem W8_row65 : Cert.Gcn.Spec.row (C := 128) (W8 m ρ c (Proc.devRef .tc main_v65)) = (m ((c : Thread nD τ).loc main_arg10)) := by
  have h : W8 m ρ c (Proc.devRef .tc main_v65) = shapeCast S1x128 (W7 m ρ c (Proc.devRef .tc main_arg10)) shapeCasts_S128_S1x128 := by
    show StableHlo.after hostOps3 (W7 m ρ c) (Proc.devRef .tc main_v65) = _
    after_results_simp
    rfl
  rw [h, Keep.W7_arg10 m ρ c]
  exact Cert.Gcn.row_shapeCast _ _
theorem W8_row66 : Cert.Gcn.Spec.row (C := 128) (W8 m ρ c (Proc.devRef .tc main_v66)) = (m ((c : Thread nD τ).loc main_arg11)) := by
  have h : W8 m ρ c (Proc.devRef .tc main_v66) = shapeCast S1x128 (W7 m ρ c (Proc.devRef .tc main_arg11)) shapeCasts_S128_S1x128 := by
    show StableHlo.after hostOps3 (W7 m ρ c) (Proc.devRef .tc main_v66) = _
    after_results_simp
    rfl
  rw [h, Keep.W7_arg11 m ρ c]
  exact Cert.Gcn.row_shapeCast _ _
theorem W8_row67 : Cert.Gcn.Spec.row (C := 128) (W8 m ρ c (Proc.devRef .tc main_v67)) = (m ((c : Thread nD τ).loc main_arg12)) := by
  have h : W8 m ρ c (Proc.devRef .tc main_v67) = shapeCast S1x128 (W7 m ρ c (Proc.devRef .tc main_arg12)) shapeCasts_S128_S1x128 := by
    show StableHlo.after hostOps3 (W7 m ρ c) (Proc.devRef .tc main_v67) = _
    after_results_simp
    rfl
  rw [h, Keep.W7_arg12 m ρ c]
  exact Cert.Gcn.row_shapeCast _ _
theorem W8_row68 : Cert.Gcn.Spec.row (C := 128) (W8 m ρ c (Proc.devRef .tc main_v68)) = (m ((c : Thread nD τ).loc main_arg13)) := by
  have h : W8 m ρ c (Proc.devRef .tc main_v68) = shapeCast S1x128 (W7 m ρ c (Proc.devRef .tc main_arg13)) shapeCasts_S128_S1x128 := by
    show StableHlo.after hostOps3 (W7 m ρ c) (Proc.devRef .tc main_v68) = _
    after_results_simp
    rfl
  rw [h, Keep.W7_arg13 m ρ c]
  exact Cert.Gcn.row_shapeCast _ _

/-! ## The host stretch before the sixth launch -/

/-- The aggregation over the edges of the product the launch before left. -/
theorem W11_v83 : W11 m ρ c (Proc.devRef .tc main_v83)
    = Cert.Gcn.agg64 (W10 m ρ c (Proc.devRef .tc main_v70)) (Cert.Gcn.src (m ((c : Thread nD τ).loc main_arg1))) (Cert.Gcn.dst (m ((c : Thread nD τ).loc main_arg1))) (Cert.Gcn.norm (m ((c : Thread nD τ).loc main_arg1))) := by
  have h : W11 m ρ c (Proc.devRef .tc main_v83)
      = Cert.Gcn.agg64 (W10 m ρ c (Proc.devRef .tc main_v70)) (W10 m ρ c (Proc.devRef .tc main_v3)) (W10 m ρ c (Proc.devRef .tc main_v6)) (W10 m ρ c (Proc.devRef .tc main_v29)) := by
    show StableHlo.after hostOps5 (W10 m ρ c) (Proc.devRef .tc main_v83) = _
    after_results_simp
    rfl
  rw [h, W10_src m ρ c, W10_dst m ρ c, W10_norm m ρ c]
theorem W11_row84 : Cert.Gcn.Spec.row (C := 64) (W11 m ρ c (Proc.devRef .tc main_v84)) = (m ((c : Thread nD τ).loc main_arg15)) := by
  have h : W11 m ρ c (Proc.devRef .tc main_v84) = shapeCast S1x64 (W10 m ρ c (Proc.devRef .tc main_arg15)) shapeCasts_S64_S1x64 := by
    show StableHlo.after hostOps5 (W10 m ρ c) (Proc.devRef .tc main_v84) = _
    after_results_simp
    rfl
  rw [h, Keep.W10_arg15 m ρ c]
  exact Cert.Gcn.row_shapeCast _ _
theorem W11_row85 : Cert.Gcn.Spec.row (C := 64) (W11 m ρ c (Proc.devRef .tc main_v85)) = (m ((c : Thread nD τ).loc main_arg16)) := by
  have h : W11 m ρ c (Proc.devRef .tc main_v85) = shapeCast S1x64 (W10 m ρ c (Proc.devRef .tc main_arg16)) shapeCasts_S64_S1x64 := by
    show StableHlo.after hostOps5 (W10 m ρ c) (Proc.devRef .tc main_v85) = _
    after_results_simp
    rfl
  rw [h, Keep.W10_arg16 m ρ c]
  exact Cert.Gcn.row_shapeCast _ _
theorem W11_row86 : Cert.Gcn.Spec.row (C := 64) (W11 m ρ c (Proc.devRef .tc main_v86)) = (m ((c : Thread nD τ).loc main_arg17)) := by
  have h : W11 m ρ c (Proc.devRef .tc main_v86) = shapeCast S1x64 (W10 m ρ c (Proc.devRef .tc main_arg17)) shapeCasts_S64_S1x64 := by
    show StableHlo.after hostOps5 (W10 m ρ c) (Proc.devRef .tc main_v86) = _
    after_results_simp
    rfl
  rw [h, Keep.W10_arg17 m ρ c]
  exact Cert.Gcn.row_shapeCast _ _
theorem W11_row87 : Cert.Gcn.Spec.row (C := 64) (W11 m ρ c (Proc.devRef .tc main_v87)) = (m ((c : Thread nD τ).loc main_arg18)) := by
  have h : W11 m ρ c (Proc.devRef .tc main_v87) = shapeCast S1x64 (W10 m ρ c (Proc.devRef .tc main_arg18)) shapeCasts_S64_S1x64 := by
    show StableHlo.after hostOps5 (W10 m ρ c) (Proc.devRef .tc main_v87) = _
    after_results_simp
    rfl
  rw [h, Keep.W10_arg18 m ρ c]
  exact Cert.Gcn.row_shapeCast _ _
theorem W11_row88 : Cert.Gcn.Spec.row (C := 64) (W11 m ρ c (Proc.devRef .tc main_v88)) = (m ((c : Thread nD τ).loc main_arg19)) := by
  have h : W11 m ρ c (Proc.devRef .tc main_v88) = shapeCast S1x64 (W10 m ρ c (Proc.devRef .tc main_arg19)) shapeCasts_S64_S1x64 := by
    show StableHlo.after hostOps5 (W10 m ρ c) (Proc.devRef .tc main_v88) = _
    after_results_simp
    rfl
  rw [h, Keep.W10_arg19 m ρ c]
  exact Cert.Gcn.row_shapeCast _ _

/-! ## The host stretch before the last launch -/

theorem W13_col90 : Cert.Gcn.Spec.col (C := 64) (W13 m ρ c (Proc.devRef .tc main_v90)) = (m ((c : Thread nD τ).loc main_arg20)) := by
  have h : W13 m ρ c (Proc.devRef .tc main_v90) = shapeCast S1x64 (W12 m ρ c (Proc.devRef .tc main_arg20)) shapeCasts_S64x1_S1x64 := by
    show StableHlo.after hostOps6 (W12 m ρ c) (Proc.devRef .tc main_v90) = _
    after_results_simp
    rfl
  rw [h, Keep.W12_arg20 m ρ c]
  exact Cert.Gcn.col_shapeCast _ _
theorem W13_one91 : Cert.Gcn.Spec.one (W13 m ρ c (Proc.devRef .tc main_v91)) = (m ((c : Thread nD τ).loc main_arg21)) := by
  have h : W13 m ρ c (Proc.devRef .tc main_v91) = shapeCast S1x1 (W12 m ρ c (Proc.devRef .tc main_arg21)) shapeCasts_S1_S1x1 := by
    show StableHlo.after hostOps6 (W12 m ρ c) (Proc.devRef .tc main_v91) = _
    after_results_simp
    rfl
  rw [h, Keep.W12_arg21 m ρ c]
  exact Cert.Gcn.one_shapeCast _ _

/-! ## The three layers' outputs as functions of the launch memory -/

/-- The first layer: product with the first weights, aggregation over the edges, then the per-column stage. -/
def L1 := Cert.Gcn.bn128 (Cert.Gcn.agg128 (Cert.Gcn.mm1 (m ((c : Thread nD τ).loc main_arg0)) (m ((c : Thread nD τ).loc main_arg2))) (Cert.Gcn.src (m ((c : Thread nD τ).loc main_arg1))) (Cert.Gcn.dst (m ((c : Thread nD τ).loc main_arg1))) (Cert.Gcn.norm (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7))
/-- The second layer, of the first layer's output. -/
def L2 := Cert.Gcn.bn128 (Cert.Gcn.agg128 (Cert.Gcn.mm2 (L1 m c) (m ((c : Thread nD τ).loc main_arg8))) (Cert.Gcn.src (m ((c : Thread nD τ).loc main_arg1))) (Cert.Gcn.dst (m ((c : Thread nD τ).loc main_arg1))) (Cert.Gcn.norm (m ((c : Thread nD τ).loc main_arg1)))) (m ((c : Thread nD τ).loc main_arg9)) (m ((c : Thread nD τ).loc main_arg10)) (m ((c : Thread nD τ).loc main_arg11)) (m ((c : Thread nD τ).loc main_arg12)) (m ((c : Thread nD τ).loc main_arg13))
/-- The third layer, of the second layer's output, 64 columns wide. -/
def L3 := Cert.Gcn.bn64 (Cert.Gcn.agg64 (Cert.Gcn.mm3 (L2 m c) (m ((c : Thread nD τ).loc main_arg14))) (Cert.Gcn.src (m ((c : Thread nD τ).loc main_arg1))) (Cert.Gcn.dst (m ((c : Thread nD τ).loc main_arg1))) (Cert.Gcn.norm (m ((c : Thread nD τ).loc main_arg1)))) (m ((c : Thread nD τ).loc main_arg15)) (m ((c : Thread nD τ).loc main_arg16)) (m ((c : Thread nD τ).loc main_arg17)) (m ((c : Thread nD τ).loc main_arg18)) (m ((c : Thread nD τ).loc main_arg19))

/-! ## The launches, each at its entry contents -/

/-- The launch's output array is the plain product of the two arrays it found. -/
theorem W4_v30 : W4 m ρ c (Proc.devRef .tc main_v30) = Cert.Gcn.mm1 (m ((c : Thread nD τ).loc main_arg0)) (m ((c : Thread nD τ).loc main_arg2)) := by
  refine (W4_arr m ρ c 2).trans ((RegionValue.final0 (V3 m ρ) c).trans ?_)
  show Cert.Gcn.Spec.mm (M := 100000) (K := 256) (N := 128) (W3 m ρ c (Proc.devRef .tc main_arg0)) (W3 m ρ c (Proc.devRef .tc main_arg2)) = _
  rw [Keep.W3_arg0 m ρ c, Keep.W3_arg2 m ρ c]
  exact (Cert.Gcn.mm1_eq _ _).symm
/-- The launch's output array is the per-column stage of the six arrays it found: the layer's output. -/
theorem W6_v49 : W6 m ρ c (Proc.devRef .tc main_v49) = L1 m c := by
  refine (W6_arr m ρ c 6).trans ((RegionValue.final1 (V5 m ρ) c).trans ?_)
  show Cert.Gcn.Spec.bnRelu (R := 100000) (C := 128) (W5 m ρ c (Proc.devRef .tc main_v43))
      (Cert.Gcn.Spec.row (C := 128) (W5 m ρ c (Proc.devRef .tc main_v44)))
      (Cert.Gcn.Spec.row (C := 128) (W5 m ρ c (Proc.devRef .tc main_v45)))
      (Cert.Gcn.Spec.row (C := 128) (W5 m ρ c (Proc.devRef .tc main_v46)))
      (Cert.Gcn.Spec.row (C := 128) (W5 m ρ c (Proc.devRef .tc main_v47)))
      (Cert.Gcn.Spec.row (C := 128) (W5 m ρ c (Proc.devRef .tc main_v48))) = _
  rw [W5_row44 m ρ c, W5_row45 m ρ c, W5_row46 m ρ c, W5_row47 m ρ c, W5_row48 m ρ c, W5_v43 m ρ c, W4_v30 m ρ c]
  exact (Cert.Gcn.bn128_eq _ _ _ _ _ _).symm
/-- The launch's output array is the plain product of the two arrays it found. -/
theorem W7_v50 : W7 m ρ c (Proc.devRef .tc main_v50) = Cert.Gcn.mm2 (L1 m c) (m ((c : Thread nD τ).loc main_arg8)) := by
  refine (W7_arr m ρ c 2).trans ((RegionValue.final2 (V6 m ρ) c).trans ?_)
  show Cert.Gcn.Spec.mm (M := 100000) (K := 128) (N := 128) (W6 m ρ c (Proc.devRef .tc main_v49)) (W6 m ρ c (Proc.devRef .tc main_arg8)) = _
  rw [W6_v49 m ρ c, Keep.W6_arg8 m ρ c]
  exact (Cert.Gcn.mm2_eq _ _).symm
/-- The launch's output array is the per-column stage of the six arrays it found: the layer's output. -/
theorem W9_v69 : W9 m ρ c (Proc.devRef .tc main_v69) = L2 m c := by
  refine (W9_arr m ρ c 6).trans ((RegionValue.final3 (V8 m ρ) c).trans ?_)
  show Cert.Gcn.Spec.bnRelu (R := 100000) (C := 128) (W8 m ρ c (Proc.devRef .tc main_v63))
      (Cert.Gcn.Spec.row (C := 128) (W8 m ρ c (Proc.devRef .tc main_v64)))
      (Cert.Gcn.Spec.row (C := 128) (W8 m ρ c (Proc.devRef .tc main_v65)))
      (Cert.Gcn.Spec.row (C := 128) (W8 m ρ c (Proc.devRef .tc main_v66)))
      (Cert.Gcn.Spec.row (C := 128) (W8 m ρ c (Proc.devRef .tc main_v67)))
      (Cert.Gcn.Spec.row (C := 128) (W8 m ρ c (Proc.devRef .tc main_v68))) = _
  rw [W8_row64 m ρ c, W8_row65 m ρ c, W8_row66 m ρ c, W8_row67 m ρ c, W8_row68 m ρ c, W8_v63 m ρ c, W7_v50 m ρ c]
  exact (Cert.Gcn.bn128_eq _ _ _ _ _ _).symm
/-- The launch's output array is the plain product of the two arrays it found. -/
theorem W10_v70 : W10 m ρ c (Proc.devRef .tc main_v70) = Cert.Gcn.mm3 (L2 m c) (m ((c : Thread nD τ).loc main_arg14)) := by
  refine (W10_arr m ρ c 2).trans ((RegionValue.final4 (V9 m ρ) c).trans ?_)
  show Cert.Gcn.Spec.mm (M := 100000) (K := 128) (N := 64) (W9 m ρ c (Proc.devRef .tc main_v69)) (W9 m ρ c (Proc.devRef .tc main_arg14)) = _
  rw [W9_v69 m ρ c, Keep.W9_arg14 m ρ c]
  exact (Cert.Gcn.mm3_eq _ _).symm
/-- The launch's output array is the per-column stage of the six arrays it found: the layer's output. -/
theorem W12_v89 : W12 m ρ c (Proc.devRef .tc main_v89) = L3 m c := by
  refine (W12_arr m ρ c 6).trans ((RegionValue.final5 (V11 m ρ) c).trans ?_)
  show Cert.Gcn.Spec.bnRelu (R := 100000) (C := 64) (W11 m ρ c (Proc.devRef .tc main_v83))
      (Cert.Gcn.Spec.row (C := 64) (W11 m ρ c (Proc.devRef .tc main_v84)))
      (Cert.Gcn.Spec.row (C := 64) (W11 m ρ c (Proc.devRef .tc main_v85)))
      (Cert.Gcn.Spec.row (C := 64) (W11 m ρ c (Proc.devRef .tc main_v86)))
      (Cert.Gcn.Spec.row (C := 64) (W11 m ρ c (Proc.devRef .tc main_v87)))
      (Cert.Gcn.Spec.row (C := 64) (W11 m ρ c (Proc.devRef .tc main_v88))) = _
  rw [W11_row84 m ρ c, W11_row85 m ρ c, W11_row86 m ρ c, W11_row87 m ρ c, W11_row88 m ρ c, W11_v83 m ρ c, W10_v70 m ρ c]
  exact (Cert.Gcn.bn64_eq _ _ _ _ _ _).symm
/-- The last launch's output array is the read-out of the third layer's output. -/
theorem W14_v92 : W14 m ρ c (Proc.devRef .tc main_v92) = Cert.Gcn.readout (L3 m c) (m ((c : Thread nD τ).loc main_arg20)) (m ((c : Thread nD τ).loc main_arg21)) := by
  refine (W14_arr m ρ c 3).trans ((RegionValue.final6 (V13 m ρ) c).trans ?_)
  show Cert.Gcn.Spec.head (R := 100000) (C := 64) (W13 m ρ c (Proc.devRef .tc main_v89))
      (Cert.Gcn.Spec.col (C := 64) (W13 m ρ c (Proc.devRef .tc main_v90))) (Cert.Gcn.Spec.one (W13 m ρ c (Proc.devRef .tc main_v91))) = _
  rw [W13_col90 m ρ c, W13_one91 m ρ c, Keep.W13_v89 m ρ c, W12_v89 m ρ c]
  exact (Cert.Gcn.readout_eq _ _ _).symm

/-! ## The result array is the network of the launch memory -/

theorem out_eq : W14 m ρ c (Proc.devRef .tc main_v92) = Cert.Gcn.net
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21)) :=
  W14_v92 m ρ c

end Cert.KernelIdeal.Chain

end
-- ==== Proof.LibStageRead.lean ====
/-
  Reading the fold of a straight line of host operations (program-independent; imports only the library).

  The contents of a program's buffers after a list of host operations is the fold of the operations' results over the
  contents before it. Two facts serve to read such a fold at one buffer. A concatenation of two operands can be written with the operands
  as plain arguments, so that a rewriting pass reaches them (as an entry of a list of shape-and-contents pairs it cannot).
  And one rewriting pass over the fold of a literal list gives, at any buffer, the composed operations of what the
  list finds: each operation's result at its own buffer is its function's value and at any other buffer what was
  there; the transports of contents between a buffer's own type and the value's type, which are along equations that
  hold by computation, are dropped.
-/
import Idealize.ShloMosaic.Lib.StableHlo.Run

noncomputable section

namespace Cert.StageRead

open Idealize.ShloMosaic Idealize.ShloMosaic.StableHlo

/-- A concatenation of two operands with the operands as plain arguments. -/
def concatPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A concatenation of a two-entry list is the pair form of its two entries. -/
theorem concatenate_pair {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = concatPair t a s₁ s₂ h x₁ x₂ := rfl

/-- One rewriting pass over the fold of a literal list of operations, read at a buffer. -/
macro "stage_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair,
      cast_eq, cast_cast, eq_mpr_eq_cast, eq_mp_eq_cast, eqRec_eq_cast]))

end Cert.StageRead

end
-- ==== Proof.RefNet.lean ====
/-
  The reference program's result is the network of its arguments.

  The reference's run ends with its result buffer at the composed term of its 169 host operations applied to the
  arguments' launch contents. Listed stage by stage — the edge data, then for each layer the dense product, the
  aggregation over the edges and the normalisation, then the read-out — those operations are exactly the stages'
  definitions, so the composed term is the network of the arguments.
-/
import proofs.«144362_j47656957116627_1_alg».proof.Proof.RefRun
import proofs.«144362_j47656957116627_1_alg».proof.Proof.Layers

set_option maxRecDepth 16384

noncomputable section

namespace Cert.Gcn

open Cert.ReferenceIdeal Cert.ReferenceIdeal.Gen Idealize.ShloMosaic Idealize.ShloMosaic.TcCoe Idealize.SL.Sem

/-- The composed term of the reference's operations is the network of the argument arrays. -/
theorem res_eq (m : (ℓ : Loc nD τ sig) → Buf (Elt Ideal) ℓ) (c : Dev nD) :
    Cert.ReferenceIdeal.RefRun.res_main_v138 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold Cert.ReferenceIdeal.RefRun.res_main_v138
  rfl

end Cert.Gcn

end
-- ==== Proof.lean ====
/-
  A three-layer graph-convolution network with a logistic read-out: the launched program against its host reference.

  Both programs compute, from the edge list, the endpoints with one self loop per node and per edge the product of the
  endpoints' inverse square-root degrees; then three times a dense product of the node features, the aggregation of
  the edges' scaled source rows into their target rows, and a bias, a normalisation by running statistics, an affine
  map and a rectifier per column; and last a product with a one-column matrix, a bias and the logistic function. The
  launched program runs the three dense products, the three normalisations and the read-out as launches over 25 blocks
  of 4000 rows and everything else as the same host operations as the reference.

  Over the ideal values each launch leaves in its output array one whole-array function of the arrays it found: the
  plain product (a row of the output depends on the same row of the left operand; the casts to a narrower format are
  the identity), the column-wise normalisation, and the read-out (a row's sum of products, the bias, the logistic
  function, which over the extended reals is `1 / (1 + exp (-x))` by definition). Those are, index by index, the
  reference's dot products, its column-wise chain and its read-out, and the host operations between the launches are
  the reference's own. So both runs end with the network of the arguments in their result arrays; no law used here
  needs the arguments finite. The three frames are the generated ones (the reference's is its run with the result
  dropped), and the idealization's ledger is empty.
-/
import proofs.«144362_j47656957116627_1_alg».proof.Defs
import proofs.«144362_j47656957116627_1_alg».proof.Proof.Gen.Kernel
import proofs.«144362_j47656957116627_1_alg».proof.Proof.Gen.Kernel.Frame
import proofs.«144362_j47656957116627_1_alg».proof.Proof.Gen.KernelIdeal
import proofs.«144362_j47656957116627_1_alg».proof.Proof.Gen.KernelIdeal.Frame
import proofs.«144362_j47656957116627_1_alg».proof.Proof.Gen.ReferenceIdeal
import proofs.«144362_j47656957116627_1_alg».proof.Proof.Gen.Pre_finite_inputs
import proofs.«144362_j47656957116627_1_alg».proof.Proof.KRun
import proofs.«144362_j47656957116627_1_alg».proof.Proof.KChain
import proofs.«144362_j47656957116627_1_alg».proof.Proof.RefRun
import proofs.«144362_j47656957116627_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ledger is empty. -/
theorem preserves : Cert.preserves_Kernel_KernelIdeal := trivial

/-- Both runs end with the network of the arguments in their result arrays. -/
theorem algebraic : Cert.algebraic_KernelIdeal_ReferenceIdeal := by
  intro m ρ m' ρ' _ hagree
  refine ⟨fun c => Cert.Gcn.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Chain.out_eq m ρ c), (h c).2⟩)
      (Cert.KernelIdeal.ValueRun.run_out (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18, h19, h20, h21⟩ := hagree c
    rw [Cert.Gcn.res_eq m' c, h0, h1, h2, h3, h4, h5, h6, h7, h8, h9, h10, h11, h12, h13, h14, h15, h16, h17, h18, h19, h20, h21]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
